-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048 : Shape := ⟨2, ![256, 2048]⟩
abbrev S2048x2048 : Shape := ⟨2, ![2048, 2048]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S256x2048 .f32) (main_arg1 : FVec F S2048x2048 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S256x2048 : Shape := ⟨2, ![256, 2048]⟩
abbrev S2048x2048 : Shape := ⟨2, ![2048, 2048]⟩
abbrev S128x512 : Shape := ⟨2, ![128, 512]⟩
abbrev S512x2048 : Shape := ⟨2, ![512, 2048]⟩
abbrev S128x2048 : Shape := ⟨2, ![128, 2048]⟩
abbrev S256x64x32 : Shape := ⟨3, ![256, 64, 32]⟩
abbrev S32x256x64 : Shape := ⟨3, ![32, 256, 64]⟩
abbrev S32x64x256 : Shape := ⟨3, ![32, 64, 256]⟩
abbrev S256x64 : Shape := ⟨2, ![256, 64]⟩
abbrev S32x64x64 : Shape := ⟨3, ![32, 64, 64]⟩
abbrev S64x64 : Shape := ⟨2, ![64, 64]⟩
abbrev S64x64x256 : Shape := ⟨3, ![64, 64, 256]⟩
abbrev S1x64x64 : Shape := ⟨3, ![1, 64, 64]⟩
abbrev S1x64x256 : Shape := ⟨3, ![1, 64, 256]⟩
abbrev S64x256 : Shape := ⟨2, ![64, 256]⟩
abbrev S64x64x1 : Shape := ⟨3, ![64, 64, 1]⟩
abbrev S256x2112 : Shape := ⟨2, ![256, 2112]⟩

abbrev nBuf : Space → Nat
  | .hbm => 8
  | .vmem => 13
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S256x2048, .bf16⟩
  | .hbm, ⟨3, _⟩ => ⟨S256x64x32, .bf16⟩
  | .hbm, ⟨4, _⟩ => ⟨S32x256x64, .bf16⟩
  | .hbm, ⟨5, _⟩ => ⟨S32x64x256, .bf16⟩
  | .hbm, ⟨6, _⟩ => ⟨S256x64, .f32⟩
  | .hbm, ⟨7, _⟩ => ⟨S256x2112, .f32⟩
  | .local _ .vmem, ⟨0, _⟩ => ⟨S128x512, .f32⟩
  | .local _ .vmem, ⟨1, _⟩ => ⟨S128x512, .f32⟩
  | .local _ .vmem, ⟨2, _⟩ => ⟨S512x2048, .f32⟩
  | .local _ .vmem, ⟨3, _⟩ => ⟨S512x2048, .f32⟩
  | .local _ .vmem, ⟨4, _⟩ => ⟨S128x2048, .bf16⟩
  | .local _ .vmem, ⟨5, _⟩ => ⟨S128x2048, .bf16⟩
  | .local _ .vmem, ⟨6, _⟩ => ⟨S128x2048, .f32⟩
  | .local _ .vmem, ⟨7, _⟩ => ⟨S32x64x64, .bf16⟩
  | .local _ .vmem, ⟨8, _⟩ => ⟨S32x64x64, .bf16⟩
  | .local _ .vmem, ⟨9, _⟩ => ⟨S32x64x256, .bf16⟩
  | .local _ .vmem, ⟨10, _⟩ => ⟨S64x64, .f32⟩
  | .local _ .vmem, ⟨11, _⟩ => ⟨S64x64, .f32⟩
  | .local _ .vmem, ⟨12, _⟩ => ⟨S64x64x256, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![4], ![false]⟩

@[reducible] def k1_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩
def k1_off1 (k1_t1 : Fin k1_t1_loop.trips) : Fin 3 → Nat :=
  let c0_i32 : BitVec 32 := 0#32
  let c1_i32 : BitVec 32 := 1#32
  let arg5 : BitVec 32 := Scf.iv c0_i32 c1_i32 k1_t1
  let v11 : Index := Scalar.indexCast arg5
  let c0_10 : Index := 0#32
  let c0_11 : Index := 0#32
  ![v11.toNat, 0, 0]
def k1_off2 (k1_t1 : Fin k1_t1_loop.trips) : Fin 3 → Nat :=
  let c0_i32 : BitVec 32 := 0#32
  let c1_i32 : BitVec 32 := 1#32
  let arg5 : BitVec 32 := Scf.iv c0_i32 c1_i32 k1_t1
  let v14 : Index := Scalar.indexCast arg5
  let c0_12 : Index := 0#32
  let c0_13 : Index := 0#32
  ![v14.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x64x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x64x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S128x512_S128x512_0_0 : ∀ a, (![0, 0] : Fin 2 → Nat) a + S128x512.size a ≤ S128x512.size a
  h_S128x512 : 0 < S128x512.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  packedbf16_S128x2048_S128x2048_0_0 : (Rect.unit (s := S128x2048) ![0, 0] S128x2048.size inb_S128x2048_S128x2048_0_0).PackedRows (EltTy.packing .bf16)
  shapeCasts_S256x2048_S256x64x32 : S256x2048.ShapeCasts S256x64x32
  transposes_S256x64x32_S32x256x64_2_0_1 : S256x64x32.Transposes [2, 0, 1] S32x256x64
  transposes_S256x64x32_S32x64x256_2_1_0 : S256x64x32.Transposes [2, 1, 0] S32x64x256
  inb_S64x64x256_S64x64x256_0_0_0 : ∀ a, (![0, 0, 0] : Fin 3 → Nat) a + S64x64x256.size a ≤ S64x64x256.size a
  h_S64x64x256 : 0 < S64x64x256.numel
  shapeCasts_S64x64x256_S64x64x256 : S64x64x256.ShapeCasts S64x64x256
  h_S1x64x64 : 0 < S1x64x64.numel
  shapeCasts_S1x64x64_S64x64 : S1x64x64.ShapeCasts S64x64
  h_S1x64x256 : 0 < S1x64x256.numel
  shapeCasts_S1x64x256_S64x256 : S1x64x256.ShapeCasts S64x256
  shapeCasts_S64x64_S64x64x1 : S64x64.ShapeCasts S64x64x1
  shapeCasts_S64x256_S1x64x256 : S64x256.ShapeCasts S1x64x256
  broadcasts_S64x64x1_S64x64x256 : S64x64x1.Broadcasts S64x64x256
  broadcasts_S1x64x256_S64x64x256 : S1x64x256.Broadcasts S64x64x256
  reduces_S64x64x256_S64x64 : S64x64x256.Reduces [2] S64x64
  inb_S64x64_S64x64_0_0 : ∀ a, (![0, 0] : Fin 2 → Nat) a + S64x64.size a ≤ S64x64.size a
  h_S64x64 : 0 < S64x64.numel
  concatenates_S256x2048_S256x64_S256x2112_d1 : Shape.Concatenates [S256x2048, S256x64] S256x2112 1
  dot_S128x512_S512x2048_S128x2048_1_0_0_1_n_n_wf : DotDims.WF S128x512 S512x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S256x2048.size a
  hwx0_0 : ∀ i : grid0.Coords, EltTy.bits .f32 = 32 ∨ (Rect.block (s := S256x2048) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S256x2048.size a
  hwx0_2 : ∀ i : grid0.Coords, EltTy.bits .bf16 = 32 ∨ (Rect.block (s := S256x2048) S128x2048.size (cc0_transform_2 i) (hinb0_2 i)).WholeWords (EltTy.packing .bf16)
  hrank1 : 0 < grid1.rank
  k1_t1_ok : k1_t1_loop.OK
  k1_off1_inb : ∀ k1_t1 : Fin k1_t1_loop.trips, ∀ a, (k1_off1 k1_t1) a + S1x64x64.size a ≤ S32x64x64.size a
  k1_off2_inb : ∀ k1_t1 : Fin k1_t1_loop.trips, ∀ a, (k1_off2 k1_t1) a + S1x64x256.size a ≤ S32x64x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x64x64.size a ≤ S32x256x64.size a
  hwx1_0 : ∀ i : grid1.Coords, EltTy.bits .bf16 = 32 ∨ (Rect.block (s := S32x256x64) S32x64x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x64x256.size a ≤ S32x64x256.size a
  hwx1_1 : ∀ i : grid1.Coords, EltTy.bits .bf16 = 32 ∨ (Rect.block (s := S32x64x256) S32x64x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S256x64.size a
  hwx1_2 : ∀ i : grid1.Coords, EltTy.bits .f32 = 32 ∨ (Rect.block (s := S256x64) S64x64.size (cc1_transform_2 i) (hinb1_2 i)).WholeWords (EltTy.packing .f32)

variable [Facts₀]

def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v2) S32x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S32x64x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S64x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S256x2048 : Shape := ⟨2, ![256, 2048]⟩
abbrev S2048x2048 : Shape := ⟨2, ![2048, 2048]⟩
abbrev S256x64x32 : Shape := ⟨3, ![256, 64, 32]⟩
abbrev S1x256x64x32 : Shape := ⟨4, ![1, 256, 64, 32]⟩
abbrev S256x1x64x32 : Shape := ⟨4, ![256, 1, 64, 32]⟩
abbrev S256x256x64x32 : Shape := ⟨4, ![256, 256, 64, 32]⟩
abbrev S_ : Shape := ⟨0, ![]⟩
abbrev S256x256x64 : Shape := ⟨3, ![256, 256, 64]⟩
abbrev S256x64 : Shape := ⟨2, ![256, 64]⟩
abbrev S256x2112 : Shape := ⟨2, ![256, 2112]⟩

abbrev nBuf : Space → Nat
  | .hbm => 17
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S256x2048, .f32⟩
  | .hbm, ⟨3, _⟩ => ⟨S256x64x32, .f32⟩
  | .hbm, ⟨4, _⟩ => ⟨S1x256x64x32, .f32⟩
  | .hbm, ⟨5, _⟩ => ⟨S256x1x64x32, .f32⟩
  | .hbm, ⟨6, _⟩ => ⟨S256x256x64x32, .f32⟩
  | .hbm, ⟨7, _⟩ => ⟨S256x256x64x32, .f32⟩
  | .hbm, ⟨8, _⟩ => ⟨S256x256x64x32, .f32⟩
  | .hbm, ⟨9, _⟩ => ⟨S256x256x64x32, .f32⟩
  | .hbm, ⟨10, _⟩ => ⟨S_, .f32⟩
  | .hbm, ⟨11, _⟩ => ⟨S256x256x64, .f32⟩
  | .hbm, ⟨12, _⟩ => ⟨S256x256x64, .f32⟩
  | .hbm, ⟨13, _⟩ => ⟨S256x256x64, .f32⟩
  | .hbm, ⟨14, _⟩ => ⟨S_, .f32⟩
  | .hbm, ⟨15, _⟩ => ⟨S256x64, .f32⟩
  | .hbm, ⟨16, _⟩ => ⟨S256x2112, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  shapeCasts_S256x2048_S256x64x32 : S256x2048.ShapeCasts S256x64x32
  bcast_S256x64x32_S1x256x64x32_1_2_3 : S256x64x32.BroadcastsInDim S1x256x64x32 (![1, 2, 3] : Fin 3 → Fin S1x256x64x32.rank)
  bcast_S256x64x32_S256x1x64x32_0_2_3 : S256x64x32.BroadcastsInDim S256x1x64x32 (![0, 2, 3] : Fin 3 → Fin S256x1x64x32.rank)
  bcast_S1x256x64x32_S256x256x64x32_0_1_2_3 : S1x256x64x32.BroadcastsInDim S256x256x64x32 (![0, 1, 2, 3] : Fin 4 → Fin S256x256x64x32.rank)
  bcast_S256x1x64x32_S256x256x64x32_0_1_2_3 : S256x1x64x32.BroadcastsInDim S256x256x64x32 (![0, 1, 2, 3] : Fin 4 → Fin S256x256x64x32.rank)
  reducesTo_S256x256x64x32_S256x256x64_d3 : S256x256x64x32.ReducesTo [3] S256x256x64
  h_S_ : 0 < S_.numel
  reducesTo_S256x256x64_S256x64_d0 : S256x256x64.ReducesTo [0] S256x64
  concatenates_S256x2048_S256x64_S256x2112_d1 : Shape.Concatenates [S256x2048, S256x64] S256x2112 1
  dot_S256x2048_S2048x2048_S256x2048_1_0_0_1_n_n_wf : DotDims.WF S256x2048 S2048x2048 S256x2048 [1] [0] [0] [1] [] []

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

class Facts : Prop extends Facts₀ where

variable [Facts]
-- ==== Proof.Spec.lean ====
/-
  The value both programs compute, stated on the extended reals over the argument arrays alone.

  With `f : 256 × 2048` and `T : 2048 × 2048`, the projection is `M = f · T`; column `b * 32 + c` of `M` is
  coordinate `c` of feature `b`.  The L1 distance between samples `q` and `p` at feature `b` sums `|M q − M p|`
  over the 32 coordinates, and the result at `(q, b)` is the sum over all samples `p` of `exp (−distance)`.
  The absolute value is written `max d (−d)`, which is what it means on the extended reals.
-/
import Idealize.ShloMosaic.PureOps.Ideal
import Idealize.ShloMosaic.Lib.ValueIdx

noncomputable section

open scoped BigOperators

namespace Cert.Spec

open Idealize.ShloMosaic Idealize.ShloMosaic.ValueIdx

/-- Entry `(i, j)` of the product `f · T`: the sum over the 2048 shared coordinates. -/
def proj (f : (⟨2, ![256, 2048]⟩ : Shape).Idx → EReal) (T : (⟨2, ![2048, 2048]⟩ : Shape).Idx → EReal)
    (i : Fin 256) (j : Fin 2048) : EReal :=
  ∑ k : Fin 2048, f (ix2 i k) * T (ix2 k j)

/-- The column of the product holding coordinate `c` of feature `b`. -/
def col (b : Fin 64) (c : Fin 32) : Fin 2048 := ⟨b.val * 32 + c.val, by omega⟩

/-- The L1 distance between rows `q` and `p` of `M` over the 32 coordinates of feature `b`. -/
def l1 (M : Fin 256 → Fin 2048 → EReal) (q p : Fin 256) (b : Fin 64) : EReal :=
  ∑ c : Fin 32, max (M q (col b c) - M p (col b c)) (-(M q (col b c) - M p (col b c)))

/-- The similarity of sample `q` to all samples at feature `b`. -/
def sim (M : Fin 256 → Fin 2048 → EReal) (q : Fin 256) (b : Fin 64) : EReal :=
  ∑ p : Fin 256, Ideal.exp (-(l1 M q p b))

/-- The similarity array `256 × 64` as a function of the two argument arrays. -/
def out (f : (⟨2, ![256, 2048]⟩ : Shape).Idx → EReal) (T : (⟨2, ![2048, 2048]⟩ : Shape).Idx → EReal) :
    (⟨2, ![256, 64]⟩ : Shape).Idx → EReal :=
  fun i => sim (proj f T) ⟨(i 0).val, idx2_lt0 i⟩ ⟨(i 1).val, idx2_lt1 i⟩

theorem out_apply (f : (⟨2, ![256, 2048]⟩ : Shape).Idx → EReal) (T : (⟨2, ![2048, 2048]⟩ : Shape).Idx → EReal)
    (q : Fin 256) (b : Fin 64) : out f T (ix2 q b) = sim (proj f T) q b := rfl

end Cert.Spec

end
-- ==== Proof.RefSpec.lean ====
/-
  The reference program computes the specification.

  Read one operation at a time, the reference forms the product `M = f · T`, views it as `256 × 64 × 32` (row `p`,
  feature `b`, coordinate `c` is column `b * 32 + c`), takes for every pair of samples the difference of their rows,
  its absolute value, the sum over the 32 coordinates, the exponential of the negated sum, and finally the sum over the
  first sample of the pair.  Each step is identified with the corresponding piece of the specification.
-/
import proofs.«128984_j79843442033274_2_alg».proof.Proof.Gen.ReferenceIdeal.Read
import proofs.«128984_j79843442033274_2_alg».proof.Proof.Spec

noncomputable section

open scoped BigOperators

namespace Cert.ReferenceIdeal.RefSpec

open Cert.ReferenceIdeal Cert.ReferenceIdeal.Read Idealize.ShloMosaic Idealize.ShloMosaic.ValueIdx

variable (x0 : (⟨S256x2048, .f32⟩ : BufTy).Contents (Elt Ideal)) (x1 : (⟨S2048x2048, .f32⟩ : BufTy).Contents (Elt Ideal))

/-- The reshaped product at `(p, b, c)` is entry `(p, b * 32 + c)` of `f · T`. -/
theorem v1_ix3 (p : Fin 256) (b : Fin 64) (c : Fin 32) :
    val_main_v1 (F := Ideal) x0 x1 (ix3 p b c) = Cert.Spec.proj x0 x1 p (Cert.Spec.col b c) := by
  rw [val_main_v1_apply, val_main_v0_apply]
  unfold Cert.Spec.proj
  refine Finset.sum_congr rfl fun k _ => ?_
  have hp : p.val < 256 := p.isLt
  have hb : b.val < 64 := b.isLt
  have hc : c.val < 32 := c.isLt
  have hl : lidx_main_v0 (idx_main_v1 (ix3 p b c)) k = ix2 p k := funext fun a => Fin.ext (by
    match a with
    | ⟨0, _⟩ => show ((p.val * 64 + b.val) * 32 + c.val) / 2048 = p.val; omega
    | ⟨1, _⟩ => rfl)
  have hr : ridx_main_v0 (idx_main_v1 (ix3 p b c)) k = ix2 k (Cert.Spec.col b c) := funext fun a => Fin.ext (by
    match a with
    | ⟨0, _⟩ => rfl
    | ⟨1, _⟩ => show ((p.val * 64 + b.val) * 32 + c.val) % 2048 = b.val * 32 + c.val; omega)
  rw [hl, hr]

/-- The difference array at `(k, q, b, c)` is row `q` minus row `k` of the product, at coordinate `c` of feature `b`. -/
theorem v6_ix4 (k q : Fin 256) (b : Fin 64) (c : Fin 32) :
    val_main_v6 (F := Ideal) x0 x1 (ix4 k q b c)
      = Cert.Spec.proj x0 x1 q (Cert.Spec.col b c) - Cert.Spec.proj x0 x1 k (Cert.Spec.col b c) := by
  rw [val_main_v6_apply, val_main_v4_apply, val_main_v5_apply, val_main_v2_apply, val_main_v3_apply, Ideal.subf_def]
  have h4 : idx_main_v2 (idx_main_v4 (ix4 k q b c)) = ix3 q b c := funext fun a => Fin.ext (by
    match a with
    | ⟨0, _⟩ => rfl
    | ⟨1, _⟩ => rfl
    | ⟨2, _⟩ => rfl)
  have h5 : idx_main_v3 (idx_main_v5 (ix4 k q b c)) = ix3 k b c := funext fun a => Fin.ext (by
    match a with
    | ⟨0, _⟩ => rfl
    | ⟨1, _⟩ => rfl
    | ⟨2, _⟩ => rfl)
  rw [h4, h5, v1_ix3, v1_ix3]

/-- The sum over the 32 coordinates at `(k, q, b)` is the L1 distance between rows `q` and `k` at feature `b`. -/
theorem v8_ix3 (k q : Fin 256) (b : Fin 64) :
    val_main_v8 (F := Ideal) x0 x1 (ix3 k q b) = Cert.Spec.l1 (Cert.Spec.proj x0 x1) q k b := by
  rw [val_main_v8_apply, val_main_cst_apply, Ideal.ofBits_def, Ideal.ofBits_zero_f32, zero_add]
  unfold Cert.Spec.l1
  refine Finset.sum_congr rfl fun c _ => ?_
  have h8 : idx_main_v8 (ix3 k q b) c = ix4 k q b c := funext fun a => Fin.ext (by
    match a with
    | ⟨0, _⟩ => rfl
    | ⟨1, _⟩ => rfl
    | ⟨2, _⟩ => rfl
    | ⟨3, _⟩ => rfl)
  rw [h8, val_main_v7_apply, Ideal.hostAbsf_def, Ideal.absf_def, v6_ix4]

/-- The exponential array at `(k, q, b)` is the exponential of the negated distance. -/
theorem v10_ix3 (k q : Fin 256) (b : Fin 64) :
    val_main_v10 (F := Ideal) x0 x1 (ix3 k q b) = Ideal.exp (-(Cert.Spec.l1 (Cert.Spec.proj x0 x1) q k b)) := by
  rw [val_main_v10_apply, val_main_v9_apply, Ideal.hostUnary_exp_def, Ideal.hostNegf_def, Ideal.negf_def, v8_ix3]

/-- The value the reference computes before the final concatenation is the specification's similarity array. -/
theorem ref_is_spec :
    val_main_v11 (F := Ideal) x0 x1 = Cert.Spec.out x0 x1 := by
  funext i
  obtain ⟨q, b, rfl⟩ : ∃ (q : Fin 256) (b : Fin 64), i = ix2 q b := ⟨i 0, i 1, eq_ix2 i⟩
  rw [Cert.Spec.out_apply, val_main_v11_apply, val_main_cst_0_apply, Ideal.ofBits_def, Ideal.ofBits_zero_f32, zero_add]
  unfold Cert.Spec.sim
  refine Finset.sum_congr rfl fun k _ => ?_
  have h11 : idx_main_v11 (ix2 q b) k = ix3 k q b := funext fun a => Fin.ext (by
    match a with
    | ⟨0, _⟩ => rfl
    | ⟨1, _⟩ => rfl
    | ⟨2, _⟩ => rfl)
  rw [h11, v10_ix3]

end Cert.ReferenceIdeal.RefSpec

end
-- ==== Proof.MmBody.lean ====
import proofs.«128984_j79843442033274_2_alg».proof.Proof.Gen.KernelIdeal.Launch
import proofs.«128984_j79843442033274_2_alg».proof.Proof.Gen.KernelIdeal.Skeleton
import proofs.«128984_j79843442033274_2_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The matmul kernel's body at one grid point

The body is run at a grid point `(i, k)`: the scratch accumulator (128 × 2048) is zeroed when `k = 0`; the product of the
point's 128 × 512 block of the first operand with its 512 × 2048 block of the second is added to it; when `k = 3` the
accumulator, rounded to the output's format, is stored into the output's staging buffer.  Three cases of the two conditions
occur on the grid; each is a triple whose post names what the scratch and the output buffer hold. -/

/-- `k = 0`, as the body tests it. -/
abbrev cond0 (i : grid0.Coords) : Prop := (Scalar.cmpi .ne (Scalar.extui (Scalar.cmpi .eq (BitVec.ofNat 32 (i 1).val) 0#32)) 0#32) = 1#1
/-- `k = 3`, as the body tests it. -/
abbrev cond1 (i : grid0.Coords) : Prop := k0_cond2 i = 1#1

theorem hz2 : (![0, 0] : Fin 2 → Nat) = fun _ => 0 := by funext a; fin_cases a <;> rfl

/-- What a whole-buffer store made last leaves, read back through any view of the buffer, whatever was stored before. -/
theorem read_store_whole_cons (S : Shape) {e : EltTy} {sp : Space} (v : View sig .tc sp S e) (f : v.ty.Contents (Elt F))
    (off : Fin S.rank → Nat) (hoff : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero hoff inb y⟩),
    View.canon_cons_unit_zero hoff]

/-- What a whole-buffer store leaves, read back through any view of the buffer. -/
theorem read_store_whole (S : Shape) (hr : S.rank = 2) {e : EltTy} {sp : Space} (v : View sig .tc sp S e) (f : v.ty.Contents (Elt F))
    (off : Fin S.rank → Nat) (hoff : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero hoff inb y⟩),
    View.canon_unit_zero hoff]

set_option maxHeartbeats 1000000 in
/-- A middle point (`k = 1, 2`): the product is added to what the scratch held; the output's buffer is not touched. -/
theorem sound_mid (c : Dev nD) (E : Set ℕ) (i : grid0.Coords)
    (arg2 : Memref sig .tc .vmem S128x512 .f32) (harg2 : arg2.IsWhole) (arg3 : Memref sig .tc .vmem S512x2048 .f32) (harg3 : arg3.IsWhole)
    (arg4 : Memref sig .tc .vmem S128x2048 .bf16) (harg4 : arg4.IsWhole) (arg5 : Memref sig .tc .vmem S128x2048 .f32) (harg5 : arg5.IsWhole)
    (hc0 : ¬cond0 i) (hc1 : ¬cond1 i)
    (x0 : Vec F S128x512 .f32) (x1 : Vec F S512x2048 .f32) (d4 : Vec F S128x2048 .bf16) (xs : Vec F S128x2048 .f32) (K : PUnit → sProp 𝕄) :
    iprop(owns (c : Thread nD τ) arg2 fullShare x0 ∗ owns (c : Thread nD τ) arg3 fullShare x1
        ∗ owns (c : Thread nD τ) arg4 fullShare d4 ∗ owns (c : Thread nD τ) arg5 fullShare xs
        ∗ (iprop(owns (c : Thread nD τ) arg2 fullShare x0 ∗ owns (c : Thread nD τ) arg3 fullShare x1
            ∗ owns (c : Thread nD τ) arg4 fullShare d4 ∗ owns (c : Thread nD τ) arg5 fullShare (k0_pay2 x0 x1 xs)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [read_store_whole S128x2048 rfl _ _ _ hz2]
  simp only [View.readAt_eq_ld, hf2, hf3, hf5]
  rw [View.ld_unit_zero (S := S128x512) hz2, View.ld_unit_zero (S := S512x2048) hz2, View.ld_unit_zero (S := S128x2048) hz2]

set_option maxHeartbeats 1000000 in
theorem sound_first (c : Dev nD) (E : Set ℕ) (i : grid0.Coords)
    (arg2 : Memref sig .tc .vmem S128x512 .f32) (harg2 : arg2.IsWhole) (arg3 : Memref sig .tc .vmem S512x2048 .f32) (harg3 : arg3.IsWhole)
    (arg4 : Memref sig .tc .vmem S128x2048 .bf16) (harg4 : arg4.IsWhole) (arg5 : Memref sig .tc .vmem S128x2048 .f32) (harg5 : arg5.IsWhole)
    (hc0 : cond0 i) (hc1 : ¬cond1 i)
    (x0 : Vec F S128x512 .f32) (x1 : Vec F S512x2048 .f32) (d4 : Vec F S128x2048 .bf16) (K : PUnit → sProp 𝕄) :
    iprop(owns (c : Thread nD τ) arg2 fullShare x0 ∗ owns (c : Thread nD τ) arg3 fullShare x1
        ∗ owns (c : Thread nD τ) arg4 fullShare d4 ∗ (∃ d, owns (c : Thread nD τ) arg5 fullShare d)
        ∗ (iprop(owns (c : Thread nD τ) arg2 fullShare x0 ∗ owns (c : Thread nD τ) arg3 fullShare x1
            ∗ owns (c : Thread nD τ) arg4 fullShare d4 ∗ owns (c : Thread nD τ) arg5 fullShare (k0_pay2 x0 x1 (k0_pay1 (F := F)))) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f2, %hf2, H2⟩, ⟨%f3, %hf3, H3⟩, ⟨%f4, %hf4, H4⟩, ⟨%d5, %f5, -, H5⟩, Hk⟩
  obtain rfl := harg2.eq_unread hf2; obtain rfl := harg3.eq_unread hf3
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [read_store_whole_cons S128x2048 _ _ _ hz2]
  sl_unfold_run_names
  rw [View.readCov_unit_zero _ hz2]
  simp only [View.readAt_eq_ld, hf2, hf3]
  rw [View.ld_unit_zero (S := S128x512) hz2, View.ld_unit_zero (S := S512x2048) hz2]

set_option maxHeartbeats 1000000 in
theorem sound_last (c : Dev nD) (E : Set ℕ) (i : grid0.Coords)
    (arg2 : Memref sig .tc .vmem S128x512 .f32) (harg2 : arg2.IsWhole) (arg3 : Memref sig .tc .vmem S512x2048 .f32) (harg3 : arg3.IsWhole)
    (arg4 : Memref sig .tc .vmem S128x2048 .bf16) (harg4 : arg4.IsWhole) (arg5 : Memref sig .tc .vmem S128x2048 .f32) (harg5 : arg5.IsWhole)
    (hc0 : ¬cond0 i) (hc1 : cond1 i)
    (x0 : Vec F S128x512 .f32) (x1 : Vec F S512x2048 .f32) (xs : Vec F S128x2048 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k0_pay3 (k0_pay2 x0 x1 xs)) ∗ owns (c : Thread nD τ) arg5 fullShare (k0_pay2 x0 x1 xs)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [read_store_whole S128x2048 rfl _ _ _ hz2]
    sl_unfold_run_names
    rw [View.readCov_unit_zero _ hz2]
    simp only [View.readAt_eq_ld, hf2, hf3, hf5]
    rw [View.ld_unit_zero (S := S128x512) hz2, View.ld_unit_zero (S := S512x2048) hz2, View.ld_unit_zero (S := S128x2048) hz2]
  iexists _; isplitr
  swap; · iexact H5
  ipureintro
  sl_unfold_run_names
  rw [read_store_whole S128x2048 rfl _ _ _ hz2]
  simp only [View.readAt_eq_ld, hf2, hf3, hf5]
  rw [View.ld_unit_zero (S := S128x512) hz2, View.ld_unit_zero (S := S512x2048) hz2, View.ld_unit_zero (S := S128x2048) hz2]

end Cert.KernelIdeal.Mm
end
-- ==== Proof.MmDat.lean ====
/-
  The proof data of the first pallas_call (the matrix product accumulated over four column blocks) and its body
  obligation.

  The grid has eight points `(i, k)`, `i < 2` the row block and `k < 4` the block of the shared axis, visited with `k`
  fastest, so point `t` has `k = t mod 4`.  The scratch accumulator is zeroed at `k = 0`, receives the product of the
  point's two operand blocks at every point, and is rounded into the output's staging buffer at `k = 3`, the only
  points whose output block is written back.  What the scratch holds after point `t` is the recursion `acc`; the
  output's buffer after a point `k = 3` is the rounding of `acc` there, and at the other points it is left as found.
-/
import proofs.«128984_j79843442033274_2_alg».proof.Proof.MmBody
import proofs.«128984_j79843442033274_2_alg».proof.Proof.Gen.KernelIdeal.Launch
import proofs.«128984_j79843442033274_2_alg».proof.Proof.Gen.KernelIdeal.Skeleton
import proofs.«128984_j79843442033274_2_alg».proof.Proof.Gen.KernelIdeal.Points
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The conditions in closed form, and where the output window is idle -/

/-- The zeroing condition holds exactly at the points `k = 0`. -/
theorem hcond0 : ∀ t : Fin cfg0.N, cond0 (grid0.coords t) ↔ t.val % 4 = 0 :=
  (by decide +kernel : ∀ t : Fin grid0.N, cond0 (grid0.coords t) ↔ t.val % 4 = 0)

/-- The storing condition holds exactly at the points `k = 3`. -/
theorem hcond1 : ∀ t : Fin cfg0.N, cond1 (grid0.coords t) ↔ t.val % 4 = 3 :=
  (by decide +kernel : ∀ t : Fin grid0.N, cond1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
/-- The output window is idle, and not written back, at the points `k ≠ 3`; -/
theorem idleAt0_2 : ∀ t : Fin cfg0.N, ¬t.val % 4 = 3 → cfg0.idle 2 (grid0.coords t) = true := by decide +kernel
theorem noFlush0_2 : ∀ t : Fin cfg0.N, ¬t.val % 4 = 3 → (cfg0.win 2).flush t = false := by decide +kernel
/-- and live at the points `k = 3`. -/
theorem liveAt0_2 : ∀ t : Fin cfg0.N, t.val % 4 = 3 → cfg0.idle 2 (grid0.coords t) = false := by decide +kernel

/-! ## The staging memrefs and the scratch -/

abbrev ms0_0 (t : Fin cfg0.N) : Memref sig .tc .vmem S128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2048 .bf16 := win0_2.stage (cfg0.slots t 2)
abbrev hs0_2 (t : Fin cfg0.N) : (ms0_2 t).IsWhole := hstage0_2 ((cfg0.slots t 2).cast nbuf0_2)
/-- The scratch accumulator: a whole scoped buffer of the kernel's own. -/
abbrev scM0 : Memref sig .tc .vmem S128x2048 .f32 := Memref.whole cc0_scratch0

/-- The core's other scoped buffers that are no staging buffer of this pallas_call (those of the second one), each
    whole at some contents: they ride through this region untouched. -/
abbrev rest6 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the scratch as a memref owned at some contents. -/
theorem PhiA0_eq (c : Dev nD) :
    (Pipeline.ΦA spec0 c : sProp 𝕄)
      = iprop(iprop((∃ d, owns (c : Thread nD τ) scM0 fullShare d) ∗ rest6 (F := F) c) ∗ (∃ r, prngReg c r)) := by
  unfold Pipeline.ΦA; rw [scopedRest0_eq]; simp only [scM0, owns_whole]; try rfl

/-! ## What the scratch holds after each point -/

/-- The accumulator after the body at position `n`: at `k = 0` the product of the point's blocks added to zero,
    otherwise added to what the point before left. -/
def acc (c : Dev nD) : (n : ℕ) → n < cfg0.N → Vec F S128x2048 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc c n (Nat.lt_of_succ_lt hn))

theorem acc_first (c : Dev nD) (t : Fin cfg0.N) (h : t.val % 4 = 0) :
    acc V c t.val t.isLt = k0_pay2 (iblk0 V c 0 t) (iblk0 V c 1 t) (k0_pay1 (F := F)) := by
  obtain ⟨n, hn⟩ := t
  cases n with
  | zero => rfl
  | succ n => exact if_pos h

theorem acc_next (c : Dev nD) (t : Fin cfg0.N) (h : ¬t.val % 4 = 0) :
    acc V c t.val t.isLt = k0_pay2 (iblk0 V c 0 t) (iblk0 V c 1 t) (acc V c (t.val - 1) (Nat.lt_of_le_of_lt (Nat.sub_le _ _) t.isLt)) := by
  obtain ⟨n, hn⟩ := t
  cases n with
  | zero => exact absurd (Nat.zero_mod _) h
  | succ n => exact if_neg h

/-- The region invariant before position `n`: before the first point the class's; afterwards the scratch at what the
    point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare (acc V c n hn) ∗ rest6 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (acc V c n hn) ∗ rest6 (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (acc V c (n - 1) (by omega)) ∗ rest6 (F := F) c) ∗ (∃ r, prngReg c r)) := by
  cases n with
  | zero => exact absurd rfl hz
  | succ n => rfl

/-! ## The proof data -/

/-- The proof data on core `c`: the arrays as the region finds them; after the body each input's buffer at its
    block and the output's at the rounded accumulator; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.KernelIdeal.Mm

end
-- ==== Proof.MmObl.lean ====
/-
  The body obligation of the first pallas_call: at every grid point the body, run on the point's staging buffers and
  the scratch as the invariant hands it over, leaves the buffers as the proof data say.  Three cases by the position
  `k = t mod 4` on the shared axis: `k = 0` (the scratch is zeroed first, whatever it held), `k = 1, 2` (the product is
  added to what the point before left), `k = 3` (added, then rounded into the output's buffer).
-/
import proofs.«128984_j79843442033274_2_alg».proof.Proof.MmDat

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 8 := lt_of_lt_of_eq t.isLt (show cfg0.N = 8 from N_0)
  by_cases h3 : t.val % 4 = 3
  · have h0 : ¬t.val % 4 = 0 := by omega
    have hz : t.val ≠ 0 := by omega
    rw [show (dat0 V c).leavesExact 2 t = owns (c : Thread nD τ) (ms0_2 t) fullShare ((dat0 V c).after 2 t) from by
      unfold Dat.leavesExact; rw [liveAt0_2 t h3], after0_2]
    rw [acc_next V c t h0]
    rw [PhiS_castSucc V c t, PhiS_pos V c _ _ hz]
    iintro ⟨⟨⟨HS, Hr6⟩, Hg⟩, Ho, ⟨%d0, H0⟩, ⟨%d1, H1⟩, ⟨%d2, H2⟩⟩
    iapply (sound_last c Set.univ (grid0.coords t) (ms0_0 t) (hs0_0 t) (ms0_1 t) (hs0_1 t) (ms0_2 t) (hs0_2 t) scM0 (Memref.isWhole_whole _)
      (fun h => h0 ((hcond0 t).mp h)) ((hcond1 t).mpr h3) (iblk0 V c 0 t) (iblk0 V c 1 t) (acc V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HS Hr6 Hg]
    · isplitl [HS Hr6]
      · isplitl [HS]; · iexact HS
        iexact Hr6
      iexact Hg
    isplitl [Ho]; · iexact Ho
    isplitl [H0]; · iexact H0
    isplitl [H1]; · iexact H1
    iexact H2
  · rw [Dat.leavesExact_idle (dat0 V c) 2 t (idleAt0_2 t h3) (noFlush0_2 t h3)]
    by_cases h0 : t.val % 4 = 0
    · rw [acc_first V c t h0]
      by_cases hz : t.val = 0
      · rw [PhiS_castSucc V c t, PhiS_zero V c _ _ hz, PhiA0_eq]
        iintro ⟨⟨⟨⟨%ds, HS⟩, Hr6⟩, Hg⟩, Ho, ⟨%d0, H0⟩, ⟨%d1, H1⟩, ⟨%d2, H2⟩⟩
        iapply (sound_first c Set.univ (grid0.coords t) (ms0_0 t) (hs0_0 t) (ms0_1 t) (hs0_1 t) (ms0_2 t) (hs0_2 t) scM0 (Memref.isWhole_whole _)
          ((hcond0 t).mpr h0) (fun h => h3 ((hcond1 t).mp h)) (iblk0 V c 0 t) (iblk0 V c 1 t) ((dat0 V c).before 2 t d2) _)
        isplitl [H0]; · iexact H0
        isplitl [H1]; · iexact H1
        isplitl [H2]; · iexact H2
        isplitl [HS]; · iexists _; iexact HS
        iintro ⟨H0, H1, H2, HS⟩
        isplitl [HS Hr6 Hg]
        · isplitl [HS Hr6]
          · isplitl [HS]; · iexact HS
            iexact Hr6
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS, Hr6⟩, Hg⟩, Ho, ⟨%d0, H0⟩, ⟨%d1, H1⟩, ⟨%d2, H2⟩⟩
        iapply (sound_first c Set.univ (grid0.coords t) (ms0_0 t) (hs0_0 t) (ms0_1 t) (hs0_1 t) (ms0_2 t) (hs0_2 t) scM0 (Memref.isWhole_whole _)
          ((hcond0 t).mpr h0) (fun h => h3 ((hcond1 t).mp h)) (iblk0 V c 0 t) (iblk0 V c 1 t) ((dat0 V c).before 2 t d2) _)
        isplitl [H0]; · iexact H0
        isplitl [H1]; · iexact H1
        isplitl [H2]; · iexact H2
        isplitl [HS]; · iexists _; iexact HS
        iintro ⟨H0, H1, H2, HS⟩
        isplitl [HS Hr6 Hg]
        · isplitl [HS Hr6]
          · isplitl [HS]; · iexact HS
            iexact Hr6
          iexact Hg
        isplitl [Ho]; · iexact Ho
        isplitl [H0]; · iexact H0
        isplitl [H1]; · iexact H1
        iexists _; iexact H2
    · have hz : t.val ≠ 0 := fun e => h0 (by rw [e])
      rw [acc_next V c t h0]
      rw [PhiS_castSucc V c t, PhiS_pos V c _ _ hz]
      iintro ⟨⟨⟨HS, Hr6⟩, Hg⟩, Ho, ⟨%d0, H0⟩, ⟨%d1, H1⟩, ⟨%d2, H2⟩⟩
      iapply (sound_mid c Set.univ (grid0.coords t) (ms0_0 t) (hs0_0 t) (ms0_1 t) (hs0_1 t) (ms0_2 t) (hs0_2 t) scM0 (Memref.isWhole_whole _)
        (fun h => h0 ((hcond0 t).mp h)) (fun h => h3 ((hcond1 t).mp h)) (iblk0 V c 0 t) (iblk0 V c 1 t) ((dat0 V c).before 2 t d2)
        (acc V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS Hr6 Hg]
      · isplitl [HS Hr6]
        · isplitl [HS]; · iexact HS
          iexact Hr6
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS, Hr6⟩, Hg⟩
  isplitl [HS Hr6]
  · isplitl [HS]
    · iexists _; iexact HS
    iexact Hr6
  iexact Hg

theorem hout0 (c : Dev nD) : (dat0 V c).Φ (Fin.last cfg0.N) ⊢ Pipeline.ΦA spec0 c :=
  Phi_out0 V c _ (by rw [Fin.val_last]; have : cfg0.N = 8 := N_0; omega)

end Cert.KernelIdeal.Mm

end
-- ==== Proof.L1Fn.lean ====
/-
  The second kernel's body as a pure function of its two operand blocks.

  One grid point holds a block `x0 : 32 × 64 × 64` (coordinate, sample row of the tile, feature) and the whole array
  `x1 : 32 × 64 × 256` (coordinate, feature, sample).  The body zeroes an accumulator `64 × 64 × 256`, then for each
  of the 32 coordinates adds `|x0 c r b − x1 c b j|` at `(r, b, j)`, and finally stores, at `(r, b)`, the sum over
  the 256 samples `j` of the exponential of the negated accumulator.
-/
import proofs.«128984_j79843442033274_2_alg».proof.Proof.Gen.KernelIdeal.Skeleton
import Idealize.ShloMosaic.Lib.Pipeline.FrameBody

set_option maxRecDepth 16384

noncomputable section

namespace Cert.KernelIdeal.L1

open Cert.KernelIdeal Cert.KernelIdeal.Gen
open Idealize.ShloMosaic Idealize.ShloMosaic.TcCoe

variable {F : FTy → Type} [FloatOps F]

/-- The slab of the first operand holding coordinate `k`: what the body loads from it at trip `k`. -/
abbrev slab0 (x0 : Vec F S32x64x64 .bf16) (k : Fin k1_t1_loop.trips) : Vec F S1x64x64 .bf16 :=
  View.ld x0 (Rect.unit (s := S32x64x64) (k1_off1 k) S1x64x64.size (k1_off1_inb k))

/-- The slab of the second operand holding coordinate `k`. -/
abbrev slab1 (x1 : Vec F S32x64x256 .bf16) (k : Fin k1_t1_loop.trips) : Vec F S1x64x256 .bf16 :=
  View.ld x1 (Rect.unit (s := S32x64x256) (k1_off2 k) S1x64x256.size (k1_off2_inb k))

/-- The accumulator after the first `k` coordinates: zero, then one coordinate's absolute differences added per trip. -/
def accum (x0 : Vec F S32x64x64 .bf16) (x1 : Vec F S32x64x256 .bf16) : ℕ → Vec F S64x64x256 .f32
  | 0 => k1_pay1
  | k + 1 => if h : k < k1_t1_loop.trips then k1_pay2 (slab0 x0 ⟨k, h⟩) (slab1 x1 ⟨k, h⟩) (accum x0 x1 k) else accum x0 x1 k

theorem accum_zero (x0 : Vec F S32x64x64 .bf16) (x1 : Vec F S32x64x256 .bf16) : accum x0 x1 0 = k1_pay1 := rfl

theorem accum_succ (x0 : Vec F S32x64x64 .bf16) (x1 : Vec F S32x64x256 .bf16) (k : Fin k1_t1_loop.trips) :
    accum x0 x1 (k.val + 1) = k1_pay2 (slab0 x0 k) (slab1 x1 k) (accum x0 x1 k.val) := by
  rw [accum]; exact dif_pos k.isLt

/-- What the body stores into its output block: the lane sums of the exponentials of the negated accumulator after
    all 32 coordinates. -/
def out1 (x0 : Vec F S32x64x64 .bf16) (x1 : Vec F S32x64x256 .bf16) : Vec F S64x64 .f32 :=
  k1_pay3 (accum x0 x1 k1_t1_loop.trips)

end Cert.KernelIdeal.L1

end
-- ==== Proof.L1Body.lean ====
/-
  The second kernel's body, run on any staging memrefs: it returns its operands' buffers as it found them and leaves
  in the output's buffer the pure function `out1` of the two operand blocks.
-/
import proofs.«128984_j79843442033274_2_alg».proof.Proof.L1Fn
import proofs.«128984_j79843442033274_2_alg».proof.Proof.Gen.KernelIdeal.Launch
import proofs.«128984_j79843442033274_2_alg».proof.Proof.Gen.KernelIdeal.Skeleton
import proofs.«128984_j79843442033274_2_alg».proof.Proof.Gen.KernelIdeal.Loops
import proofs.«128984_j79843442033274_2_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl

theorem hz3 : (![0, 0, 0] : Fin 3 → Nat) = fun _ => 0 := by funext a; fin_cases a <;> rfl

/-- What a store through the whole buffer, made last, leaves: read back through any view of the buffer it is the stored
    payload, whatever was stored before it. -/
theorem read_store_whole_cons (S : Shape) {e : EltTy} {sp : Space} (v : View sig .tc sp S e) (f : v.ty.Contents (Elt F))
    (off : Fin S.rank → Nat) (hoff : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero hoff inb y⟩),
    View.canon_cons_unit_zero hoff]

/-- One trip writes one piece, the whole accumulator: the trip's coordinate slabs of the two operands' contents and the
    accumulator's contents as the trip finds them, combined by the trip's payload. -/
theorem tripL_eq (𝒱 : Variants) (c : Dev nD) (bd : Option 𝒱.V) (i : grid1.Coords)
    (arg1 : Memref sig .tc .vmem S32x64x64 .bf16) (harg1 : arg1.IsWhole) (arg2 : Memref sig .tc .vmem S32x64x256 .bf16) (harg2 : arg2.IsWhole)
    (arg3 : Memref sig .tc .vmem S64x64 .f32) (harg3 : arg3.IsWhole) (arg4 : Memref sig .tc .vmem S64x64x256 .f32) (harg4 : arg4.IsWhole)
    (X1 : BufTy.Contents (Elt F) arg1.view.ty) (X2 : BufTy.Contents (Elt F) arg2.view.ty) (k : Fin k1_t1_loop.trips)
    (f : BufTy.Contents (Elt F) arg4.view.ty) :
    tripL_k1_t1 (F := F) 𝒱 c bd i arg1 harg1 arg2 harg2 arg3 harg3 arg4 harg4 X1 X2 k f
      = [⟨Rect.unit (s := S64x64x256) ![0, 0, 0] S64x64x256.size inb_S64x64x256_S64x64x256_0_0_0,
          k1_pay2 (arg1.view.readAt (Elt F) (Rect.unit (s := S32x64x64) (k1_off1 k) S1x64x64.size (k1_off1_inb k)).toLoadRect X1)
            (arg2.view.readAt (Elt F) (Rect.unit (s := S32x64x256) (k1_off2 k) S1x64x256.size (k1_off2_inb k)).toLoadRect X2)
            (arg4.view.readAt (Elt F) (Rect.unit (s := S64x64x256) ![0, 0, 0] S64x64x256.size inb_S64x64x256_S64x64x256_0_0_0).toLoadRect f)⟩] := by
  unfold tripL_k1_t1 trip_k1_t1
  rfl

/-- The accumulator's contents before trip `k`: starting from contents that read as zeros, with the operands' buffers
    reading `x0` and `x1`, the pieces of the first `k` trips leave `accum x0 x1 k`. -/
theorem read_pb (𝒱 : Variants) (c : Dev nD) (bd : Option 𝒱.V) (i : grid1.Coords)
    (arg1 : Memref sig .tc .vmem S32x64x64 .bf16) (harg1 : arg1.IsWhole) (arg2 : Memref sig .tc .vmem S32x64x256 .bf16) (harg2 : arg2.IsWhole)
    (arg3 : Memref sig .tc .vmem S64x64 .f32) (harg3 : arg3.IsWhole) (arg4 : Memref sig .tc .vmem S64x64x256 .f32) (harg4 : arg4.IsWhole)
    (x0 : Vec F S32x64x64 .bf16) (x1 : Vec F S32x64x256 .bf16)
    (X1 : BufTy.Contents (Elt F) arg1.view.ty) (hX1 : arg1.view.read (Elt F) X1 = x0)
    (X2 : BufTy.Contents (Elt F) arg2.view.ty) (hX2 : arg2.view.read (Elt F) X2 = x1)
    (G : BufTy.Contents (Elt F) arg4.view.ty) (hG : arg4.view.read (Elt F) G = k1_pay1) (k : ℕ) (hk : k ≤ k1_t1_loop.trips) :
    arg4.view.read (Elt F) (arg4.view.writes (Elt F) G
        (pb_k1_t1 (F := F) 𝒱 c bd i arg1 harg1 arg2 harg2 arg3 harg3 arg4 harg4 X1 X2 G k)) = accum x0 x1 k := by
  induction k with
  | zero => rw [pb_k1_t1, View.writes_nil, hG, accum_zero]
  | succ k ih =>
    have hk' : k < k1_t1_loop.trips := hk
    have ih' := ih (Nat.le_of_lt hk')
    have h : pb_k1_t1 (F := F) 𝒱 c bd i arg1 harg1 arg2 harg2 arg3 harg3 arg4 harg4 X1 X2 G (k + 1)
        = (tripL_k1_t1 (F := F) 𝒱 c bd i arg1 harg1 arg2 harg2 arg3 harg3 arg4 harg4 X1 X2 ⟨k, hk'⟩
            (arg4.view.writes (Elt F) G (pb_k1_t1 (F := F) 𝒱 c bd i arg1 harg1 arg2 harg2 arg3 harg3 arg4 harg4 X1 X2 G k)))
          ++ (pb_k1_t1 (F := F) 𝒱 c bd i arg1 harg1 arg2 harg2 arg3 harg3 arg4 harg4 X1 X2 G k) :=
      pb_k1_t1_succ (F := F) 𝒱 c bd i arg1 harg1 arg2 harg2 arg3 harg3 arg4 harg4 X1 X2 G ⟨k, hk'⟩
    have hs : accum x0 x1 (k + 1) = k1_pay2 (slab0 x0 ⟨k, hk'⟩) (slab1 x1 ⟨k, hk'⟩) (accum x0 x1 k) :=
      accum_succ x0 x1 ⟨k, hk'⟩
    rw [h, View.writes_append, tripL_eq, read_store_whole_cons S64x64x256 _ _ _ hz3, hs]
    simp only [View.readAt_eq_ld, hX1, hX2, ih']
    rw [View.ld_unit_zero (S := S64x64x256) hz3]

set_option maxHeartbeats 1000000 in
/-- The body at any grid point, in continuation form. -/
theorem sound_kernel1 (c : Dev nD) (E : Set ℕ) (i : grid1.Coords)
    (arg1 : Memref sig .tc .vmem S32x64x64 .bf16) (harg1 : arg1.IsWhole) (arg2 : Memref sig .tc .vmem S32x64x256 .bf16) (harg2 : arg2.IsWhole)
    (arg3 : Memref sig .tc .vmem S64x64 .f32) (harg3 : arg3.IsWhole) (arg4 : Memref sig .tc .vmem S64x64x256 .f32) (harg4 : arg4.IsWhole)
    (x0 : Vec F S32x64x64 .bf16) (x1 : Vec F S32x64x256 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out1 x0 x1) ∗ (∃ d, owns (c : Thread nD τ) arg4 fullShare d)) -∗ K ⟨⟩))
      ⊢ wp frame (wpE (defs₀ (F := F)) Variants.none c none) E (cc1__l1_kernel i arg1 harg1 arg2 harg2 arg3 harg3 arg4 harg4) K := by
  simp only [cc1__l1_kernel_eq_skeleton]; unfold cc1__l1_kernel_skel; unfold owns
  iintro ⟨⟨%f1, %hf1, H1⟩, ⟨%f2, %hf2, H2⟩, ⟨%d3, %f3, -, H3⟩, ⟨%d4, %f4, -, H4⟩, Hk⟩
  obtain rfl := harg1.eq_unread hf1; obtain rfl := harg2.eq_unread hf2
  sl_exec
  sl_step
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [read_store_whole_cons S64x64 _ _ _ hz2]
    sl_unfold_run_names
    unfold out1
    refine congrArg k1_pay3 ?_
    rw [View.readAt_eq_ld, View.writes_append,
      read_pb Variants.none c none i arg1 harg1 arg2 harg2 arg3 harg3 arg4 harg4 x0 x1 _ hf1 _ hf2 _
        (read_store_whole_cons S64x64x256 _ _ _ hz3 _ _ []) _ (Nat.le_refl _),
      View.ld_unit_zero (S := S64x64x256) hz3]
  iexists _; iexists _; isplitr
  swap; · iexact H4
  ipureintro; rfl

end Cert.KernelIdeal.L1

end
-- ==== Proof.L1Dat.lean ====
/-
  The second kernel's pipeline as proof data: at the contents `V` its region is entered with, each operand window's
  block, what the body leaves in each window's buffer at a point, and the body's obligation at every point.
-/
import proofs.«128984_j79843442033274_2_alg».proof.Proof.L1Body
import proofs.«128984_j79843442033274_2_alg».proof.Proof.Gen.KernelIdeal.Launch
import proofs.«128984_j79843442033274_2_alg».proof.Proof.Gen.KernelIdeal.Skeleton
import proofs.«128984_j79843442033274_2_alg».proof.Proof.Gen.KernelIdeal.Points
import Idealize.ShloMosaic.Lib.Pipeline.Frame
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the second kernel's region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first operand's current staging buffer holds its block at every point, for any proof data whose array is
    `V`'s and whose body leaves the block in place: the window is fetched at every point, uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second operand's staging buffer holds its block at every point, fetched there or not: it is fetched at the
    first point only, and its block index never moves, so at a later point the buffer still holds the previous
    point's block, which is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the second kernel's pipeline on core `c`: the arrays as the region finds them (`V`); after the
    body at point `t` each operand's buffer at its block and the output's at `out1` of the two operand blocks; the
    invariant is the scoped buffers (the kernel's scratch among them) at any contents and the generator register at
    any state; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

/-- Each operand's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The scratch operand, taken out of the invariant -/

/-- The kernel's scratch operand: a whole scoped buffer of its own, passed beside the windows. -/
abbrev scM1_0 : Memref sig .tc .vmem S64x64x256 .f32 := Memref.whole cc1_scratch0

/-- The invariant, its scoped buffers one by one: the first kernel's six staging buffers and its scratch, which the
    second kernel's body never touches, then the second kernel's scratch as a memref owned at some contents, and the
    generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ f : Buf (Elt F) ((c : Thread nD τ).loc cc0_scratch0), ((c : Thread nD τ).loc cc0_scratch0) ↦{fullShare} f)
          ∗ (∃ d, owns (c : Thread nD τ) scM1_0 fullShare d)) ∗ (∃ r, prngReg c r)) := by
  unfold Pipeline.ΦA; rw [scopedRest1_eq]; simp only [scM1_0, owns_whole]; try rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the operands' memrefs hold their blocks, the scratch comes out of the invariant at some
    contents and goes back at some contents, so the body's triple applies; the other scoped buffers, the generator
    register and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = Pipeline.ΦA spec1 c from rfl,
    show (dat1 V c).Φ t.castSucc = Pipeline.ΦA spec1 c from rfl,
    show (dat1 V c).owesAt () t.succ = (dat1 V c).owesAt () t.castSucc from rfl,
    after1_0, after1_1, after1_2, PhiA1_eq]
  iintro ⟨⟨⟨B0, B1, B2, B3, B4, B5, B6, Hs⟩, Hr⟩, Ho, ⟨%d0, H0⟩, ⟨%d1, H1⟩, ⟨%d2, H2⟩⟩
  iapply (sound_kernel1 c Set.univ (grid1.coords t) _ _ _ _ _ _ _ _ (iblk1 V c 0 t) (iblk1 V c 1 t) _)
  isplitl [H0]; · iexact H0
  isplitl [H1]; · iexact H1
  isplitl [H2]; · iexists _; iexact H2
  isplitl [Hs]; · iexact Hs
  iintro ⟨H0, H1, H2, Hs⟩
  isplitr [Ho H0 H1 H2]
  · isplitr [Hr]
    · isplitl [B0]; · iexact B0
      isplitl [B1]; · iexact B1
      isplitl [B2]; · iexact B2
      isplitl [B3]; · iexact B3
      isplitl [B4]; · iexact B4
      isplitl [B5]; · iexact B5
      isplitl [B6]; · iexact B6
      iexact Hs
    · iexact Hr
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.L1

end
-- ==== Proof.Run.lean ====
/-
  The whole program run from the launch to the return, as four segments: the first pallas_call, the three layout
  operations, the second pallas_call, the final concatenation.  Between two segments the core holds every unscoped
  buffer whole at a named valuation: the launch memory `B0`; after the first region its output array at what the
  pipeline's write-backs leave (`B1`); after the layout operations `B2`; after the second region its output array at
  what its write-backs leave (`B3`); after the concatenation `B4`.  The run's post reads every unscoped buffer of the
  final memory at `B4`.
-/
import proofs.«128984_j79843442033274_2_alg».proof.Proof.MmObl
import proofs.«128984_j79843442033274_2_alg».proof.Proof.L1Dat
import proofs.«128984_j79843442033274_2_alg».proof.Proof.Gen.KernelIdeal.Launch
import proofs.«128984_j79843442033274_2_alg».proof.Proof.Gen.KernelIdeal.Regions
import Idealize.ShloMosaic.Lib.Pipeline.Frame
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev B0 : Dev nD → Valuation τ sig (Elt F) := fun c b => m (c, b)
/-- The same read at the TensorCore's references (what the first region's proof data take). -/
abbrev E0 : (c : Dev nD) → (b : Ref sig .tc) → Buf (Elt F) ((c : Thread nD τ).loc b) := fun c b => B0 m c b
/-- At the first region's exit: its arrays at what the pipeline leaves, every other buffer as entered. -/
def B1 (c : Dev nD) : Valuation τ sig (Elt F) :=
  Pipeline.withArrays spec0 c (B0 m c) fun w => (Mm.dat0 (E0 m) c).arrAt w cfg0.N
theorem B1_arr (c : Dev nD) (w : Fin cfg0.W) :
    B1 m c (Proc.devRef .tc (Pipeline.arrRef spec0 w)) = (Mm.dat0 (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev E1 : (c : Dev nD) → (b : Ref sig .tc) → Buf (Elt F) ((c : Thread nD τ).loc b) := fun c b => B1 m c b
theorem hF0 (c : Dev nD) (w : Fin cfg0.W) : (Mm.dat0 (E0 m) c).arrAt w cfg0.N = E1 m c (Pipeline.arrRef spec0 w) :=
  (B1_arr m c w).symm
theorem hrest0 (c : Dev nD) : ∀ b, b ∉ Finset.univ.image (Pipeline.arrRef spec0) → E1 m c b = E0 m c b :=
  fun b hb => B1_of_ne m c b fun w e => hb (Finset.mem_image.mpr ⟨w, Finset.mem_univ _, e⟩)

/-- After the three layout operations (the second region's entry). -/
abbrev B2 : Dev nD → Valuation τ sig (Elt F) := fun c => StableHlo.after hostOps1 (B1 m c)
abbrev E2 : (c : Dev nD) → (b : Ref sig .tc) → Buf (Elt F) ((c : Thread nD τ).loc b) := fun c b => B2 m c b
/-- At the second region's exit. -/
def B3 (c : Dev nD) : Valuation τ sig (Elt F) :=
  Pipeline.withArrays spec1 c (B2 m c) fun w => (L1.dat1 (E2 m) c).arrAt w cfg1.N
theorem B3_arr (c : Dev nD) (w : Fin cfg1.W) :
    B3 m c (Proc.devRef .tc (Pipeline.arrRef spec1 w)) = (L1.dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (L1.dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-- After the concatenation: the contents at the return. -/
abbrev B4 : Dev nD → Valuation τ sig (Elt F) := fun c => StableHlo.after hostOps2 (B3 m c)

/-! ## The arguments end as launched -/

theorem B4_main_arg0 (c : Dev nD) : B4 m c (Proc.devRef .tc main_arg0) = m ((c : Thread nD τ).loc main_arg0) :=
  calc B4 m c (Proc.devRef .tc main_arg0)
    _ = B3 m c (Proc.devRef .tc main_arg0) := StableHlo.after_of_writes_sub hostOps2 _ hostOps2_writes (by decide)
    _ = B2 m c (Proc.devRef .tc main_arg0) := B3_of_ne m c main_arg0 (by decide)
    _ = B1 m c (Proc.devRef .tc main_arg0) := StableHlo.after_of_writes_sub hostOps1 _ hostOps1_writes (by decide)
    _ = B0 m c (Proc.devRef .tc main_arg0) := (B1_arr m c 0).trans (((Mm.dat0 (E0 m) c).arrAt_in 0 rfl _).trans (Mm.A_eq0 (E0 m) c 0))
    _ = m ((c : Thread nD τ).loc main_arg0) := rfl

theorem B4_main_arg1 (c : Dev nD) : B4 m c (Proc.devRef .tc main_arg1) = m ((c : Thread nD τ).loc main_arg1) :=
  calc B4 m c (Proc.devRef .tc main_arg1)
    _ = B3 m c (Proc.devRef .tc main_arg1) := StableHlo.after_of_writes_sub hostOps2 _ hostOps2_writes (by decide)
    _ = B2 m c (Proc.devRef .tc main_arg1) := B3_of_ne m c main_arg1 (by decide)
    _ = B1 m c (Proc.devRef .tc main_arg1) := StableHlo.after_of_writes_sub hostOps1 _ hostOps1_writes (by decide)
    _ = B0 m c (Proc.devRef .tc main_arg1) := (B1_arr m c 1).trans (((Mm.dat0 (E0 m) c).arrAt_in 1 rfl _).trans (Mm.A_eq0 (E0 m) c 1))
    _ = m ((c : Thread nD τ).loc main_arg1) := rfl

/-! ## The proof data family and what rides beside the buffers -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Mm.dat0 (E0 m) c
  | ⟨1, _⟩ => fun c => L1.dat1 (E2 m) c
abbrev 𝒱₀ : Variants := Variants.none
/-- No core owes another anything: no level is assigned. -/
abbrev L : GSem nD τ sig → Finset Unit := fun _ => ∅
abbrev lv : GSem nD τ sig → Unit → ℕ := fun _ _ => 0
/-- The generator register at some state and the core's dues, at nothing. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (B4 m c) ∗ ∃ r, prngReg c r)

/-! ## The regions as segments -/

-- a library lemma stated over the pinned configuration unifies with the printed one only when unification may unfold
-- plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Mm.body_obligation0 (E0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h.trans (Mm.hin0 (E0 m) c)
  hout c := by
    rw [Pipeline.ownSems0_none]
    have h : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (Mm.hout0 (E0 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (L1.body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .region (reg0 m),
    .host (hseg hostOps1 hostOps1_sub hostOps1_fresh (B1 m)),
    .region (reg1 m),
    .host (hseg hostOps2 hostOps2_sub hostOps2_fresh (B3 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and
    every final memory holds every unscoped buffer at `B4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun c => (show iprop(StableHlo.held (c : Thread nD τ) (Pipeline.ucRefs τ sig) (B4 m c) ∗ R c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

end Cert.KernelIdeal.Run

end
-- ==== Proof.KMmBody.lean ====
import proofs.«128984_j79843442033274_2_alg».proof.Proof.Gen.Kernel.Launch
import proofs.«128984_j79843442033274_2_alg».proof.Proof.Gen.Kernel.Skeleton
import proofs.«128984_j79843442033274_2_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The matmul kernel's body at one grid point

The body is run at a grid point `(i, k)`: the scratch accumulator (128 × 2048) is zeroed when `k = 0`; the product of the
point's 128 × 512 block of the first operand with its 512 × 2048 block of the second is added to it; when `k = 3` the
accumulator, rounded to the output's format, is stored into the output's staging buffer.  Three cases of the two conditions
occur on the grid; each is a triple whose post names what the scratch and the output buffer hold. -/

/-- `k = 0`, as the body tests it. -/
abbrev cond0 (i : grid0.Coords) : Prop := (Scalar.cmpi .ne (Scalar.extui (Scalar.cmpi .eq (BitVec.ofNat 32 (i 1).val) 0#32)) 0#32) = 1#1
/-- `k = 3`, as the body tests it. -/
abbrev cond1 (i : grid0.Coords) : Prop := k0_cond2 i = 1#1

theorem hz2 : (![0, 0] : Fin 2 → Nat) = fun _ => 0 := by funext a; fin_cases a <;> rfl

/-- What a whole-buffer store made last leaves, read back through any view of the buffer, whatever was stored before. -/
theorem read_store_whole_cons (S : Shape) {e : EltTy} {sp : Space} (v : View sig .tc sp S e) (f : v.ty.Contents (Elt F))
    (off : Fin S.rank → Nat) (hoff : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero hoff inb y⟩),
    View.canon_cons_unit_zero hoff]

/-- What a whole-buffer store leaves, read back through any view of the buffer. -/
theorem read_store_whole (S : Shape) (hr : S.rank = 2) {e : EltTy} {sp : Space} (v : View sig .tc sp S e) (f : v.ty.Contents (Elt F))
    (off : Fin S.rank → Nat) (hoff : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero hoff inb y⟩),
    View.canon_unit_zero hoff]

set_option maxHeartbeats 1000000 in
/-- A middle point (`k = 1, 2`): the product is added to what the scratch held; the output's buffer is not touched. -/
theorem sound_mid (c : Dev nD) (E : Set ℕ) (i : grid0.Coords)
    (arg2 : Memref sig .tc .vmem S128x512 .f32) (harg2 : arg2.IsWhole) (arg3 : Memref sig .tc .vmem S512x2048 .f32) (harg3 : arg3.IsWhole)
    (arg4 : Memref sig .tc .vmem S128x2048 .bf16) (harg4 : arg4.IsWhole) (arg5 : Memref sig .tc .vmem S128x2048 .f32) (harg5 : arg5.IsWhole)
    (hc0 : ¬cond0 i) (hc1 : ¬cond1 i)
    (x0 : Vec F S128x512 .f32) (x1 : Vec F S512x2048 .f32) (d4 : Vec F S128x2048 .bf16) (xs : Vec F S128x2048 .f32) (K : PUnit → sProp 𝕄) :
    iprop(owns (c : Thread nD τ) arg2 fullShare x0 ∗ owns (c : Thread nD τ) arg3 fullShare x1
        ∗ owns (c : Thread nD τ) arg4 fullShare d4 ∗ owns (c : Thread nD τ) arg5 fullShare xs
        ∗ (iprop(owns (c : Thread nD τ) arg2 fullShare x0 ∗ owns (c : Thread nD τ) arg3 fullShare x1
            ∗ owns (c : Thread nD τ) arg4 fullShare d4 ∗ owns (c : Thread nD τ) arg5 fullShare (k0_pay2 x0 x1 xs)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [read_store_whole S128x2048 rfl _ _ _ hz2]
  simp only [View.readAt_eq_ld, hf2, hf3, hf5]
  rw [View.ld_unit_zero (S := S128x512) hz2, View.ld_unit_zero (S := S512x2048) hz2, View.ld_unit_zero (S := S128x2048) hz2]

set_option maxHeartbeats 1000000 in
theorem sound_first (c : Dev nD) (E : Set ℕ) (i : grid0.Coords)
    (arg2 : Memref sig .tc .vmem S128x512 .f32) (harg2 : arg2.IsWhole) (arg3 : Memref sig .tc .vmem S512x2048 .f32) (harg3 : arg3.IsWhole)
    (arg4 : Memref sig .tc .vmem S128x2048 .bf16) (harg4 : arg4.IsWhole) (arg5 : Memref sig .tc .vmem S128x2048 .f32) (harg5 : arg5.IsWhole)
    (hc0 : cond0 i) (hc1 : ¬cond1 i)
    (x0 : Vec F S128x512 .f32) (x1 : Vec F S512x2048 .f32) (d4 : Vec F S128x2048 .bf16) (K : PUnit → sProp 𝕄) :
    iprop(owns (c : Thread nD τ) arg2 fullShare x0 ∗ owns (c : Thread nD τ) arg3 fullShare x1
        ∗ owns (c : Thread nD τ) arg4 fullShare d4 ∗ (∃ d, owns (c : Thread nD τ) arg5 fullShare d)
        ∗ (iprop(owns (c : Thread nD τ) arg2 fullShare x0 ∗ owns (c : Thread nD τ) arg3 fullShare x1
            ∗ owns (c : Thread nD τ) arg4 fullShare d4 ∗ owns (c : Thread nD τ) arg5 fullShare (k0_pay2 x0 x1 (k0_pay1 (F := F)))) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f2, %hf2, H2⟩, ⟨%f3, %hf3, H3⟩, ⟨%f4, %hf4, H4⟩, ⟨%d5, %f5, -, H5⟩, Hk⟩
  obtain rfl := harg2.eq_unread hf2; obtain rfl := harg3.eq_unread hf3
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [read_store_whole_cons S128x2048 _ _ _ hz2]
  sl_unfold_run_names
  rw [View.readCov_unit_zero _ hz2]
  simp only [View.readAt_eq_ld, hf2, hf3]
  rw [View.ld_unit_zero (S := S128x512) hz2, View.ld_unit_zero (S := S512x2048) hz2]

set_option maxHeartbeats 1000000 in
theorem sound_last (c : Dev nD) (E : Set ℕ) (i : grid0.Coords)
    (arg2 : Memref sig .tc .vmem S128x512 .f32) (harg2 : arg2.IsWhole) (arg3 : Memref sig .tc .vmem S512x2048 .f32) (harg3 : arg3.IsWhole)
    (arg4 : Memref sig .tc .vmem S128x2048 .bf16) (harg4 : arg4.IsWhole) (arg5 : Memref sig .tc .vmem S128x2048 .f32) (harg5 : arg5.IsWhole)
    (hc0 : ¬cond0 i) (hc1 : cond1 i)
    (x0 : Vec F S128x512 .f32) (x1 : Vec F S512x2048 .f32) (xs : Vec F S128x2048 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k0_pay3 (k0_pay2 x0 x1 xs)) ∗ owns (c : Thread nD τ) arg5 fullShare (k0_pay2 x0 x1 xs)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [read_store_whole S128x2048 rfl _ _ _ hz2]
    sl_unfold_run_names
    rw [View.readCov_unit_zero _ hz2]
    simp only [View.readAt_eq_ld, hf2, hf3, hf5]
    rw [View.ld_unit_zero (S := S128x512) hz2, View.ld_unit_zero (S := S512x2048) hz2, View.ld_unit_zero (S := S128x2048) hz2]
  iexists _; isplitr
  swap; · iexact H5
  ipureintro
  sl_unfold_run_names
  rw [read_store_whole S128x2048 rfl _ _ _ hz2]
  simp only [View.readAt_eq_ld, hf2, hf3, hf5]
  rw [View.ld_unit_zero (S := S128x512) hz2, View.ld_unit_zero (S := S512x2048) hz2, View.ld_unit_zero (S := S128x2048) hz2]

end Cert.Kernel.Mm
end
-- ==== Proof.KMmDat.lean ====
/-
  The proof data of the first pallas_call (the matrix product accumulated over four column blocks) and its body
  obligation.

  The grid has eight points `(i, k)`, `i < 2` the row block and `k < 4` the block of the shared axis, visited with `k`
  fastest, so point `t` has `k = t mod 4`.  The scratch accumulator is zeroed at `k = 0`, receives the product of the
  point's two operand blocks at every point, and is rounded into the output's staging buffer at `k = 3`, the only
  points whose output block is written back.  What the scratch holds after point `t` is the recursion `acc`; the
  output's buffer after a point `k = 3` is the rounding of `acc` there, and at the other points it is left as found.
-/
import proofs.«128984_j79843442033274_2_alg».proof.Proof.KMmBody
import proofs.«128984_j79843442033274_2_alg».proof.Proof.Gen.Kernel.Launch
import proofs.«128984_j79843442033274_2_alg».proof.Proof.Gen.Kernel.Skeleton
import proofs.«128984_j79843442033274_2_alg».proof.Proof.Gen.Kernel.Points
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The conditions in closed form, and where the output window is idle -/

/-- The zeroing condition holds exactly at the points `k = 0`. -/
theorem hcond0 : ∀ t : Fin cfg0.N, cond0 (grid0.coords t) ↔ t.val % 4 = 0 :=
  (by decide +kernel : ∀ t : Fin grid0.N, cond0 (grid0.coords t) ↔ t.val % 4 = 0)

/-- The storing condition holds exactly at the points `k = 3`. -/
theorem hcond1 : ∀ t : Fin cfg0.N, cond1 (grid0.coords t) ↔ t.val % 4 = 3 :=
  (by decide +kernel : ∀ t : Fin grid0.N, cond1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
/-- The output window is idle, and not written back, at the points `k ≠ 3`; -/
theorem idleAt0_2 : ∀ t : Fin cfg0.N, ¬t.val % 4 = 3 → cfg0.idle 2 (grid0.coords t) = true := by decide +kernel
theorem noFlush0_2 : ∀ t : Fin cfg0.N, ¬t.val % 4 = 3 → (cfg0.win 2).flush t = false := by decide +kernel
/-- and live at the points `k = 3`. -/
theorem liveAt0_2 : ∀ t : Fin cfg0.N, t.val % 4 = 3 → cfg0.idle 2 (grid0.coords t) = false := by decide +kernel

/-! ## The staging memrefs and the scratch -/

abbrev ms0_0 (t : Fin cfg0.N) : Memref sig .tc .vmem S128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2048 .bf16 := win0_2.stage (cfg0.slots t 2)
abbrev hs0_2 (t : Fin cfg0.N) : (ms0_2 t).IsWhole := hstage0_2 ((cfg0.slots t 2).cast nbuf0_2)
/-- The scratch accumulator: a whole scoped buffer of the kernel's own. -/
abbrev scM0 : Memref sig .tc .vmem S128x2048 .f32 := Memref.whole cc0_scratch0

/-- The core's other scoped buffers that are no staging buffer of this pallas_call (those of the second one), each
    whole at some contents: they ride through this region untouched. -/
abbrev rest6 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the scratch as a memref owned at some contents. -/
theorem PhiA0_eq (c : Dev nD) :
    (Pipeline.ΦA spec0 c : sProp 𝕄)
      = iprop(iprop((∃ d, owns (c : Thread nD τ) scM0 fullShare d) ∗ rest6 (F := F) c) ∗ (∃ r, prngReg c r)) := by
  unfold Pipeline.ΦA; rw [scopedRest0_eq]; simp only [scM0, owns_whole]; try rfl

/-! ## What the scratch holds after each point -/

/-- The accumulator after the body at position `n`: at `k = 0` the product of the point's blocks added to zero,
    otherwise added to what the point before left. -/
def acc (c : Dev nD) : (n : ℕ) → n < cfg0.N → Vec F S128x2048 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc c n (Nat.lt_of_succ_lt hn))

theorem acc_first (c : Dev nD) (t : Fin cfg0.N) (h : t.val % 4 = 0) :
    acc V c t.val t.isLt = k0_pay2 (iblk0 V c 0 t) (iblk0 V c 1 t) (k0_pay1 (F := F)) := by
  obtain ⟨n, hn⟩ := t
  cases n with
  | zero => rfl
  | succ n => exact if_pos h

theorem acc_next (c : Dev nD) (t : Fin cfg0.N) (h : ¬t.val % 4 = 0) :
    acc V c t.val t.isLt = k0_pay2 (iblk0 V c 0 t) (iblk0 V c 1 t) (acc V c (t.val - 1) (Nat.lt_of_le_of_lt (Nat.sub_le _ _) t.isLt)) := by
  obtain ⟨n, hn⟩ := t
  cases n with
  | zero => exact absurd (Nat.zero_mod _) h
  | succ n => exact if_neg h

/-- The region invariant before position `n`: before the first point the class's; afterwards the scratch at what the
    point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare (acc V c n hn) ∗ rest6 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (acc V c n hn) ∗ rest6 (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (acc V c (n - 1) (by omega)) ∗ rest6 (F := F) c) ∗ (∃ r, prngReg c r)) := by
  cases n with
  | zero => exact absurd rfl hz
  | succ n => rfl

/-! ## The proof data -/

/-- The proof data on core `c`: the arrays as the region finds them; after the body each input's buffer at its
    block and the output's at the rounded accumulator; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.Kernel.Mm

end
-- ==== Proof.KMmObl.lean ====
/-
  The body obligation of the first pallas_call: at every grid point the body, run on the point's staging buffers and
  the scratch as the invariant hands it over, leaves the buffers as the proof data say.  Three cases by the position
  `k = t mod 4` on the shared axis: `k = 0` (the scratch is zeroed first, whatever it held), `k = 1, 2` (the product is
  added to what the point before left), `k = 3` (added, then rounded into the output's buffer).
-/
import proofs.«128984_j79843442033274_2_alg».proof.Proof.KMmDat

set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 8 := lt_of_lt_of_eq t.isLt (show cfg0.N = 8 from N_0)
  by_cases h3 : t.val % 4 = 3
  · have h0 : ¬t.val % 4 = 0 := by omega
    have hz : t.val ≠ 0 := by omega
    rw [show (dat0 V c).leavesExact 2 t = owns (c : Thread nD τ) (ms0_2 t) fullShare ((dat0 V c).after 2 t) from by
      unfold Dat.leavesExact; rw [liveAt0_2 t h3], after0_2]
    rw [acc_next V c t h0]
    rw [PhiS_castSucc V c t, PhiS_pos V c _ _ hz]
    iintro ⟨⟨⟨HS, Hr6⟩, Hg⟩, Ho, ⟨%d0, H0⟩, ⟨%d1, H1⟩, ⟨%d2, H2⟩⟩
    iapply (sound_last c Set.univ (grid0.coords t) (ms0_0 t) (hs0_0 t) (ms0_1 t) (hs0_1 t) (ms0_2 t) (hs0_2 t) scM0 (Memref.isWhole_whole _)
      (fun h => h0 ((hcond0 t).mp h)) ((hcond1 t).mpr h3) (iblk0 V c 0 t) (iblk0 V c 1 t) (acc V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HS Hr6 Hg]
    · isplitl [HS Hr6]
      · isplitl [HS]; · iexact HS
        iexact Hr6
      iexact Hg
    isplitl [Ho]; · iexact Ho
    isplitl [H0]; · iexact H0
    isplitl [H1]; · iexact H1
    iexact H2
  · rw [Dat.leavesExact_idle (dat0 V c) 2 t (idleAt0_2 t h3) (noFlush0_2 t h3)]
    by_cases h0 : t.val % 4 = 0
    · rw [acc_first V c t h0]
      by_cases hz : t.val = 0
      · rw [PhiS_castSucc V c t, PhiS_zero V c _ _ hz, PhiA0_eq]
        iintro ⟨⟨⟨⟨%ds, HS⟩, Hr6⟩, Hg⟩, Ho, ⟨%d0, H0⟩, ⟨%d1, H1⟩, ⟨%d2, H2⟩⟩
        iapply (sound_first c Set.univ (grid0.coords t) (ms0_0 t) (hs0_0 t) (ms0_1 t) (hs0_1 t) (ms0_2 t) (hs0_2 t) scM0 (Memref.isWhole_whole _)
          ((hcond0 t).mpr h0) (fun h => h3 ((hcond1 t).mp h)) (iblk0 V c 0 t) (iblk0 V c 1 t) ((dat0 V c).before 2 t d2) _)
        isplitl [H0]; · iexact H0
        isplitl [H1]; · iexact H1
        isplitl [H2]; · iexact H2
        isplitl [HS]; · iexists _; iexact HS
        iintro ⟨H0, H1, H2, HS⟩
        isplitl [HS Hr6 Hg]
        · isplitl [HS Hr6]
          · isplitl [HS]; · iexact HS
            iexact Hr6
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS, Hr6⟩, Hg⟩, Ho, ⟨%d0, H0⟩, ⟨%d1, H1⟩, ⟨%d2, H2⟩⟩
        iapply (sound_first c Set.univ (grid0.coords t) (ms0_0 t) (hs0_0 t) (ms0_1 t) (hs0_1 t) (ms0_2 t) (hs0_2 t) scM0 (Memref.isWhole_whole _)
          ((hcond0 t).mpr h0) (fun h => h3 ((hcond1 t).mp h)) (iblk0 V c 0 t) (iblk0 V c 1 t) ((dat0 V c).before 2 t d2) _)
        isplitl [H0]; · iexact H0
        isplitl [H1]; · iexact H1
        isplitl [H2]; · iexact H2
        isplitl [HS]; · iexists _; iexact HS
        iintro ⟨H0, H1, H2, HS⟩
        isplitl [HS Hr6 Hg]
        · isplitl [HS Hr6]
          · isplitl [HS]; · iexact HS
            iexact Hr6
          iexact Hg
        isplitl [Ho]; · iexact Ho
        isplitl [H0]; · iexact H0
        isplitl [H1]; · iexact H1
        iexists _; iexact H2
    · have hz : t.val ≠ 0 := fun e => h0 (by rw [e])
      rw [acc_next V c t h0]
      rw [PhiS_castSucc V c t, PhiS_pos V c _ _ hz]
      iintro ⟨⟨⟨HS, Hr6⟩, Hg⟩, Ho, ⟨%d0, H0⟩, ⟨%d1, H1⟩, ⟨%d2, H2⟩⟩
      iapply (sound_mid c Set.univ (grid0.coords t) (ms0_0 t) (hs0_0 t) (ms0_1 t) (hs0_1 t) (ms0_2 t) (hs0_2 t) scM0 (Memref.isWhole_whole _)
        (fun h => h0 ((hcond0 t).mp h)) (fun h => h3 ((hcond1 t).mp h)) (iblk0 V c 0 t) (iblk0 V c 1 t) ((dat0 V c).before 2 t d2)
        (acc V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS Hr6 Hg]
      · isplitl [HS Hr6]
        · isplitl [HS]; · iexact HS
          iexact Hr6
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS, Hr6⟩, Hg⟩
  isplitl [HS Hr6]
  · isplitl [HS]
    · iexists _; iexact HS
    iexact Hr6
  iexact Hg

theorem hout0 (c : Dev nD) : (dat0 V c).Φ (Fin.last cfg0.N) ⊢ Pipeline.ΦA spec0 c :=
  Phi_out0 V c _ (by rw [Fin.val_last]; have : cfg0.N = 8 := N_0; omega)

end Cert.Kernel.Mm

end
-- ==== Proof.KL1Fn.lean ====
/-
  The second kernel's body as a pure function of its two operand blocks.

  One grid point holds a block `x0 : 32 × 64 × 64` (coordinate, sample row of the tile, feature) and the whole array
  `x1 : 32 × 64 × 256` (coordinate, feature, sample).  The body zeroes an accumulator `64 × 64 × 256`, then for each
  of the 32 coordinates adds `|x0 c r b − x1 c b j|` at `(r, b, j)`, and finally stores, at `(r, b)`, the sum over
  the 256 samples `j` of the exponential of the negated accumulator.
-/
import proofs.«128984_j79843442033274_2_alg».proof.Proof.Gen.Kernel.Skeleton
import Idealize.ShloMosaic.Lib.Pipeline.FrameBody

set_option maxRecDepth 16384

noncomputable section

namespace Cert.Kernel.L1

open Cert.Kernel Cert.Kernel.Gen
open Idealize.ShloMosaic Idealize.ShloMosaic.TcCoe

variable {F : FTy → Type} [FloatOps F]

/-- The slab of the first operand holding coordinate `k`: what the body loads from it at trip `k`. -/
abbrev slab0 (x0 : Vec F S32x64x64 .bf16) (k : Fin k1_t1_loop.trips) : Vec F S1x64x64 .bf16 :=
  View.ld x0 (Rect.unit (s := S32x64x64) (k1_off1 k) S1x64x64.size (k1_off1_inb k))

/-- The slab of the second operand holding coordinate `k`. -/
abbrev slab1 (x1 : Vec F S32x64x256 .bf16) (k : Fin k1_t1_loop.trips) : Vec F S1x64x256 .bf16 :=
  View.ld x1 (Rect.unit (s := S32x64x256) (k1_off2 k) S1x64x256.size (k1_off2_inb k))

/-- The accumulator after the first `k` coordinates: zero, then one coordinate's absolute differences added per trip. -/
def accum (x0 : Vec F S32x64x64 .bf16) (x1 : Vec F S32x64x256 .bf16) : ℕ → Vec F S64x64x256 .f32
  | 0 => k1_pay1
  | k + 1 => if h : k < k1_t1_loop.trips then k1_pay2 (slab0 x0 ⟨k, h⟩) (slab1 x1 ⟨k, h⟩) (accum x0 x1 k) else accum x0 x1 k

theorem accum_zero (x0 : Vec F S32x64x64 .bf16) (x1 : Vec F S32x64x256 .bf16) : accum x0 x1 0 = k1_pay1 := rfl

theorem accum_succ (x0 : Vec F S32x64x64 .bf16) (x1 : Vec F S32x64x256 .bf16) (k : Fin k1_t1_loop.trips) :
    accum x0 x1 (k.val + 1) = k1_pay2 (slab0 x0 k) (slab1 x1 k) (accum x0 x1 k.val) := by
  rw [accum]; exact dif_pos k.isLt

/-- What the body stores into its output block: the lane sums of the exponentials of the negated accumulator after
    all 32 coordinates. -/
def out1 (x0 : Vec F S32x64x64 .bf16) (x1 : Vec F S32x64x256 .bf16) : Vec F S64x64 .f32 :=
  k1_pay3 (accum x0 x1 k1_t1_loop.trips)

end Cert.Kernel.L1

end
-- ==== Proof.KL1Body.lean ====
/-
  The second kernel's body, run on any staging memrefs: it returns its operands' buffers as it found them and leaves
  in the output's buffer the pure function `out1` of the two operand blocks.
-/
import proofs.«128984_j79843442033274_2_alg».proof.Proof.KL1Fn
import proofs.«128984_j79843442033274_2_alg».proof.Proof.Gen.Kernel.Launch
import proofs.«128984_j79843442033274_2_alg».proof.Proof.Gen.Kernel.Skeleton
import proofs.«128984_j79843442033274_2_alg».proof.Proof.Gen.Kernel.Loops
import proofs.«128984_j79843442033274_2_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.L1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl

theorem hz3 : (![0, 0, 0] : Fin 3 → Nat) = fun _ => 0 := by funext a; fin_cases a <;> rfl

/-- What a store through the whole buffer, made last, leaves: read back through any view of the buffer it is the stored
    payload, whatever was stored before it. -/
theorem read_store_whole_cons (S : Shape) {e : EltTy} {sp : Space} (v : View sig .tc sp S e) (f : v.ty.Contents (Elt F))
    (off : Fin S.rank → Nat) (hoff : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero hoff inb y⟩),
    View.canon_cons_unit_zero hoff]

/-- One trip writes one piece, the whole accumulator: the trip's coordinate slabs of the two operands' contents and the
    accumulator's contents as the trip finds them, combined by the trip's payload. -/
theorem tripL_eq (𝒱 : Variants) (c : Dev nD) (bd : Option 𝒱.V) (i : grid1.Coords)
    (arg1 : Memref sig .tc .vmem S32x64x64 .bf16) (harg1 : arg1.IsWhole) (arg2 : Memref sig .tc .vmem S32x64x256 .bf16) (harg2 : arg2.IsWhole)
    (arg3 : Memref sig .tc .vmem S64x64 .f32) (harg3 : arg3.IsWhole) (arg4 : Memref sig .tc .vmem S64x64x256 .f32) (harg4 : arg4.IsWhole)
    (X1 : BufTy.Contents (Elt F) arg1.view.ty) (X2 : BufTy.Contents (Elt F) arg2.view.ty) (k : Fin k1_t1_loop.trips)
    (f : BufTy.Contents (Elt F) arg4.view.ty) :
    tripL_k1_t1 (F := F) 𝒱 c bd i arg1 harg1 arg2 harg2 arg3 harg3 arg4 harg4 X1 X2 k f
      = [⟨Rect.unit (s := S64x64x256) ![0, 0, 0] S64x64x256.size inb_S64x64x256_S64x64x256_0_0_0,
          k1_pay2 (arg1.view.readAt (Elt F) (Rect.unit (s := S32x64x64) (k1_off1 k) S1x64x64.size (k1_off1_inb k)).toLoadRect X1)
            (arg2.view.readAt (Elt F) (Rect.unit (s := S32x64x256) (k1_off2 k) S1x64x256.size (k1_off2_inb k)).toLoadRect X2)
            (arg4.view.readAt (Elt F) (Rect.unit (s := S64x64x256) ![0, 0, 0] S64x64x256.size inb_S64x64x256_S64x64x256_0_0_0).toLoadRect f)⟩] := by
  unfold tripL_k1_t1 trip_k1_t1
  rfl

/-- The accumulator's contents before trip `k`: starting from contents that read as zeros, with the operands' buffers
    reading `x0` and `x1`, the pieces of the first `k` trips leave `accum x0 x1 k`. -/
theorem read_pb (𝒱 : Variants) (c : Dev nD) (bd : Option 𝒱.V) (i : grid1.Coords)
    (arg1 : Memref sig .tc .vmem S32x64x64 .bf16) (harg1 : arg1.IsWhole) (arg2 : Memref sig .tc .vmem S32x64x256 .bf16) (harg2 : arg2.IsWhole)
    (arg3 : Memref sig .tc .vmem S64x64 .f32) (harg3 : arg3.IsWhole) (arg4 : Memref sig .tc .vmem S64x64x256 .f32) (harg4 : arg4.IsWhole)
    (x0 : Vec F S32x64x64 .bf16) (x1 : Vec F S32x64x256 .bf16)
    (X1 : BufTy.Contents (Elt F) arg1.view.ty) (hX1 : arg1.view.read (Elt F) X1 = x0)
    (X2 : BufTy.Contents (Elt F) arg2.view.ty) (hX2 : arg2.view.read (Elt F) X2 = x1)
    (G : BufTy.Contents (Elt F) arg4.view.ty) (hG : arg4.view.read (Elt F) G = k1_pay1) (k : ℕ) (hk : k ≤ k1_t1_loop.trips) :
    arg4.view.read (Elt F) (arg4.view.writes (Elt F) G
        (pb_k1_t1 (F := F) 𝒱 c bd i arg1 harg1 arg2 harg2 arg3 harg3 arg4 harg4 X1 X2 G k)) = accum x0 x1 k := by
  induction k with
  | zero => rw [pb_k1_t1, View.writes_nil, hG, accum_zero]
  | succ k ih =>
    have hk' : k < k1_t1_loop.trips := hk
    have ih' := ih (Nat.le_of_lt hk')
    have h : pb_k1_t1 (F := F) 𝒱 c bd i arg1 harg1 arg2 harg2 arg3 harg3 arg4 harg4 X1 X2 G (k + 1)
        = (tripL_k1_t1 (F := F) 𝒱 c bd i arg1 harg1 arg2 harg2 arg3 harg3 arg4 harg4 X1 X2 ⟨k, hk'⟩
            (arg4.view.writes (Elt F) G (pb_k1_t1 (F := F) 𝒱 c bd i arg1 harg1 arg2 harg2 arg3 harg3 arg4 harg4 X1 X2 G k)))
          ++ (pb_k1_t1 (F := F) 𝒱 c bd i arg1 harg1 arg2 harg2 arg3 harg3 arg4 harg4 X1 X2 G k) :=
      pb_k1_t1_succ (F := F) 𝒱 c bd i arg1 harg1 arg2 harg2 arg3 harg3 arg4 harg4 X1 X2 G ⟨k, hk'⟩
    have hs : accum x0 x1 (k + 1) = k1_pay2 (slab0 x0 ⟨k, hk'⟩) (slab1 x1 ⟨k, hk'⟩) (accum x0 x1 k) :=
      accum_succ x0 x1 ⟨k, hk'⟩
    rw [h, View.writes_append, tripL_eq, read_store_whole_cons S64x64x256 _ _ _ hz3, hs]
    simp only [View.readAt_eq_ld, hX1, hX2, ih']
    rw [View.ld_unit_zero (S := S64x64x256) hz3]

set_option maxHeartbeats 1000000 in
/-- The body at any grid point, in continuation form. -/
theorem sound_kernel1 (c : Dev nD) (E : Set ℕ) (i : grid1.Coords)
    (arg1 : Memref sig .tc .vmem S32x64x64 .bf16) (harg1 : arg1.IsWhole) (arg2 : Memref sig .tc .vmem S32x64x256 .bf16) (harg2 : arg2.IsWhole)
    (arg3 : Memref sig .tc .vmem S64x64 .f32) (harg3 : arg3.IsWhole) (arg4 : Memref sig .tc .vmem S64x64x256 .f32) (harg4 : arg4.IsWhole)
    (x0 : Vec F S32x64x64 .bf16) (x1 : Vec F S32x64x256 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out1 x0 x1) ∗ (∃ d, owns (c : Thread nD τ) arg4 fullShare d)) -∗ K ⟨⟩))
      ⊢ wp frame (wpE (defs₀ (F := F)) Variants.none c none) E (cc1__l1_kernel i arg1 harg1 arg2 harg2 arg3 harg3 arg4 harg4) K := by
  simp only [cc1__l1_kernel_eq_skeleton]; unfold cc1__l1_kernel_skel; unfold owns
  iintro ⟨⟨%f1, %hf1, H1⟩, ⟨%f2, %hf2, H2⟩, ⟨%d3, %f3, -, H3⟩, ⟨%d4, %f4, -, H4⟩, Hk⟩
  obtain rfl := harg1.eq_unread hf1; obtain rfl := harg2.eq_unread hf2
  sl_exec
  sl_step
  iapply Hk
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [read_store_whole_cons S64x64 _ _ _ hz2]
    sl_unfold_run_names
    unfold out1
    refine congrArg k1_pay3 ?_
    rw [View.readAt_eq_ld, View.writes_append,
      read_pb Variants.none c none i arg1 harg1 arg2 harg2 arg3 harg3 arg4 harg4 x0 x1 _ hf1 _ hf2 _
        (read_store_whole_cons S64x64x256 _ _ _ hz3 _ _ []) _ (Nat.le_refl _),
      View.ld_unit_zero (S := S64x64x256) hz3]
  iexists _; iexists _; isplitr
  swap; · iexact H4
  ipureintro; rfl

end Cert.Kernel.L1

end
-- ==== Proof.KL1Dat.lean ====
/-
  The second kernel's pipeline as proof data: at the contents `V` its region is entered with, each operand window's
  block, what the body leaves in each window's buffer at a point, and the body's obligation at every point.
-/
import proofs.«128984_j79843442033274_2_alg».proof.Proof.KL1Body
import proofs.«128984_j79843442033274_2_alg».proof.Proof.Gen.Kernel.Launch
import proofs.«128984_j79843442033274_2_alg».proof.Proof.Gen.Kernel.Skeleton
import proofs.«128984_j79843442033274_2_alg».proof.Proof.Gen.Kernel.Points
import Idealize.ShloMosaic.Lib.Pipeline.Frame
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.L1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the second kernel's region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first operand's current staging buffer holds its block at every point, for any proof data whose array is
    `V`'s and whose body leaves the block in place: the window is fetched at every point, uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second operand's staging buffer holds its block at every point, fetched there or not: it is fetched at the
    first point only, and its block index never moves, so at a later point the buffer still holds the previous
    point's block, which is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the second kernel's pipeline on core `c`: the arrays as the region finds them (`V`); after the
    body at point `t` each operand's buffer at its block and the output's at `out1` of the two operand blocks; the
    invariant is the scoped buffers (the kernel's scratch among them) at any contents and the generator register at
    any state; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

/-- Each operand's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The scratch operand, taken out of the invariant -/

/-- The kernel's scratch operand: a whole scoped buffer of its own, passed beside the windows. -/
abbrev scM1_0 : Memref sig .tc .vmem S64x64x256 .f32 := Memref.whole cc1_scratch0

/-- The invariant, its scoped buffers one by one: the first kernel's six staging buffers and its scratch, which the
    second kernel's body never touches, then the second kernel's scratch as a memref owned at some contents, and the
    generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ f : Buf (Elt F) ((c : Thread nD τ).loc cc0_scratch0), ((c : Thread nD τ).loc cc0_scratch0) ↦{fullShare} f)
          ∗ (∃ d, owns (c : Thread nD τ) scM1_0 fullShare d)) ∗ (∃ r, prngReg c r)) := by
  unfold Pipeline.ΦA; rw [scopedRest1_eq]; simp only [scM1_0, owns_whole]; try rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the operands' memrefs hold their blocks, the scratch comes out of the invariant at some
    contents and goes back at some contents, so the body's triple applies; the other scoped buffers, the generator
    register and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = Pipeline.ΦA spec1 c from rfl,
    show (dat1 V c).Φ t.castSucc = Pipeline.ΦA spec1 c from rfl,
    show (dat1 V c).owesAt () t.succ = (dat1 V c).owesAt () t.castSucc from rfl,
    after1_0, after1_1, after1_2, PhiA1_eq]
  iintro ⟨⟨⟨B0, B1, B2, B3, B4, B5, B6, Hs⟩, Hr⟩, Ho, ⟨%d0, H0⟩, ⟨%d1, H1⟩, ⟨%d2, H2⟩⟩
  iapply (sound_kernel1 c Set.univ (grid1.coords t) _ _ _ _ _ _ _ _ (iblk1 V c 0 t) (iblk1 V c 1 t) _)
  isplitl [H0]; · iexact H0
  isplitl [H1]; · iexact H1
  isplitl [H2]; · iexists _; iexact H2
  isplitl [Hs]; · iexact Hs
  iintro ⟨H0, H1, H2, Hs⟩
  isplitr [Ho H0 H1 H2]
  · isplitr [Hr]
    · isplitl [B0]; · iexact B0
      isplitl [B1]; · iexact B1
      isplitl [B2]; · iexact B2
      isplitl [B3]; · iexact B3
      isplitl [B4]; · iexact B4
      isplitl [B5]; · iexact B5
      isplitl [B6]; · iexact B6
      iexact Hs
    · iexact Hr
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.L1

end
-- ==== Proof.KRun.lean ====
/-
  The whole program run from the launch to the return, as four segments: the first pallas_call, the three layout
  operations, the second pallas_call, the final concatenation.  Between two segments the core holds every unscoped
  buffer whole at a named valuation: the launch memory `B0`; after the first region its output array at what the
  pipeline's write-backs leave (`B1`); after the layout operations `B2`; after the second region its output array at
  what its write-backs leave (`B3`); after the concatenation `B4`.  The run's post reads every unscoped buffer of the
  final memory at `B4`.
-/
import proofs.«128984_j79843442033274_2_alg».proof.Proof.KMmObl
import proofs.«128984_j79843442033274_2_alg».proof.Proof.KL1Dat
import proofs.«128984_j79843442033274_2_alg».proof.Proof.Gen.Kernel.Launch
import proofs.«128984_j79843442033274_2_alg».proof.Proof.Gen.Kernel.Regions
import Idealize.ShloMosaic.Lib.Pipeline.Frame
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev B0 : Dev nD → Valuation τ sig (Elt F) := fun c b => m (c, b)
/-- The same read at the TensorCore's references (what the first region's proof data take). -/
abbrev E0 : (c : Dev nD) → (b : Ref sig .tc) → Buf (Elt F) ((c : Thread nD τ).loc b) := fun c b => B0 m c b
/-- At the first region's exit: its arrays at what the pipeline leaves, every other buffer as entered. -/
def B1 (c : Dev nD) : Valuation τ sig (Elt F) :=
  Pipeline.withArrays spec0 c (B0 m c) fun w => (Mm.dat0 (E0 m) c).arrAt w cfg0.N
theorem B1_arr (c : Dev nD) (w : Fin cfg0.W) :
    B1 m c (Proc.devRef .tc (Pipeline.arrRef spec0 w)) = (Mm.dat0 (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev E1 : (c : Dev nD) → (b : Ref sig .tc) → Buf (Elt F) ((c : Thread nD τ).loc b) := fun c b => B1 m c b
theorem hF0 (c : Dev nD) (w : Fin cfg0.W) : (Mm.dat0 (E0 m) c).arrAt w cfg0.N = E1 m c (Pipeline.arrRef spec0 w) :=
  (B1_arr m c w).symm
theorem hrest0 (c : Dev nD) : ∀ b, b ∉ Finset.univ.image (Pipeline.arrRef spec0) → E1 m c b = E0 m c b :=
  fun b hb => B1_of_ne m c b fun w e => hb (Finset.mem_image.mpr ⟨w, Finset.mem_univ _, e⟩)

/-- After the three layout operations (the second region's entry). -/
abbrev B2 : Dev nD → Valuation τ sig (Elt F) := fun c => StableHlo.after hostOps1 (B1 m c)
abbrev E2 : (c : Dev nD) → (b : Ref sig .tc) → Buf (Elt F) ((c : Thread nD τ).loc b) := fun c b => B2 m c b
/-- At the second region's exit. -/
def B3 (c : Dev nD) : Valuation τ sig (Elt F) :=
  Pipeline.withArrays spec1 c (B2 m c) fun w => (L1.dat1 (E2 m) c).arrAt w cfg1.N
theorem B3_arr (c : Dev nD) (w : Fin cfg1.W) :
    B3 m c (Proc.devRef .tc (Pipeline.arrRef spec1 w)) = (L1.dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (L1.dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-- After the concatenation: the contents at the return. -/
abbrev B4 : Dev nD → Valuation τ sig (Elt F) := fun c => StableHlo.after hostOps2 (B3 m c)

/-! ## The arguments end as launched -/

theorem B4_main_arg0 (c : Dev nD) : B4 m c (Proc.devRef .tc main_arg0) = m ((c : Thread nD τ).loc main_arg0) :=
  calc B4 m c (Proc.devRef .tc main_arg0)
    _ = B3 m c (Proc.devRef .tc main_arg0) := StableHlo.after_of_writes_sub hostOps2 _ hostOps2_writes (by decide)
    _ = B2 m c (Proc.devRef .tc main_arg0) := B3_of_ne m c main_arg0 (by decide)
    _ = B1 m c (Proc.devRef .tc main_arg0) := StableHlo.after_of_writes_sub hostOps1 _ hostOps1_writes (by decide)
    _ = B0 m c (Proc.devRef .tc main_arg0) := (B1_arr m c 0).trans (((Mm.dat0 (E0 m) c).arrAt_in 0 rfl _).trans (Mm.A_eq0 (E0 m) c 0))
    _ = m ((c : Thread nD τ).loc main_arg0) := rfl

theorem B4_main_arg1 (c : Dev nD) : B4 m c (Proc.devRef .tc main_arg1) = m ((c : Thread nD τ).loc main_arg1) :=
  calc B4 m c (Proc.devRef .tc main_arg1)
    _ = B3 m c (Proc.devRef .tc main_arg1) := StableHlo.after_of_writes_sub hostOps2 _ hostOps2_writes (by decide)
    _ = B2 m c (Proc.devRef .tc main_arg1) := B3_of_ne m c main_arg1 (by decide)
    _ = B1 m c (Proc.devRef .tc main_arg1) := StableHlo.after_of_writes_sub hostOps1 _ hostOps1_writes (by decide)
    _ = B0 m c (Proc.devRef .tc main_arg1) := (B1_arr m c 1).trans (((Mm.dat0 (E0 m) c).arrAt_in 1 rfl _).trans (Mm.A_eq0 (E0 m) c 1))
    _ = m ((c : Thread nD τ).loc main_arg1) := rfl

/-! ## The proof data family and what rides beside the buffers -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Mm.dat0 (E0 m) c
  | ⟨1, _⟩ => fun c => L1.dat1 (E2 m) c
abbrev 𝒱₀ : Variants := Variants.none
/-- No core owes another anything: no level is assigned. -/
abbrev L : GSem nD τ sig → Finset Unit := fun _ => ∅
abbrev lv : GSem nD τ sig → Unit → ℕ := fun _ _ => 0
/-- The generator register at some state and the core's dues, at nothing. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (B4 m c) ∗ ∃ r, prngReg c r)

/-! ## The regions as segments -/

-- a library lemma stated over the pinned configuration unifies with the printed one only when unification may unfold
-- plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Mm.body_obligation0 (E0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h.trans (Mm.hin0 (E0 m) c)
  hout c := by
    rw [Pipeline.ownSems0_none]
    have h : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (Mm.hout0 (E0 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (L1.body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .region (reg0 m),
    .host (hseg hostOps1 hostOps1_sub hostOps1_fresh (B1 m)),
    .region (reg1 m),
    .host (hseg hostOps2 hostOps2_sub hostOps2_fresh (B3 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and
    every final memory holds every unscoped buffer at `B4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun c => (show iprop(StableHlo.held (c : Thread nD τ) (Pipeline.ucRefs τ sig) (B4 m c) ∗ R c)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

end Cert.Kernel.Run

end
-- ==== Proof.HostIdx.lean ====
/-
  The host operations between and after the two kernels, read at an index.

  Between the kernels the projected array `256 × 2048` is reshaped to `256 × 64 × 32` (column `b * 32 + c` becomes
  feature `b`, coordinate `c`) and transposed twice: to `32 × 256 × 64` (coordinate, sample, feature) and to
  `32 × 64 × 256` (coordinate, feature, sample).  Either transposed array at its index is the projected array at
  sample `n`, column `b * 32 + c`.  After the second kernel the result is the first argument with the similarity
  array joined on along the columns.
-/
import proofs.«128984_j79843442033274_2_alg».proof.Proof.Gen.KernelIdeal.Launch
import proofs.«128984_j79843442033274_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.HostIdx

open Idealize.ShloMosaic Idealize.ShloMosaic.TcCoe Idealize.ShloMosaic.ValueIdx Idealize.SL.Sem
open Idealize.ShloMosaic.StableHlo
open Cert.KernelIdeal Cert.KernelIdeal.Gen

variable {F : FTy → Type} [FloatOps F]

/-- The reshaped array at `(n, b, c)` is the flat array at `(n, b * 32 + c)`: the same row-major position. -/
theorem reshape_apply {α : Type} (x : S256x2048.Idx → α) (n : Fin 256) (b : Fin 64) (c : Fin 32) :
    shapeCast S256x64x32 x shapeCasts_S256x2048_S256x64x32 (ix3 n b c) = x (ix2 n (Cert.Spec.col b c)) := by
  refine shapeCast_apply x shapeCasts_S256x2048_S256x64x32 (ix3 n b c) (ix2 n (Cert.Spec.col b c)) ?_
  rewrite [Shape.rowMajor_val_two, Shape.rowMajor_val_three]
  show n.val * 2048 + (b.val * 32 + c.val) = (n.val * 64 + b.val) * 32 + c.val
  omega

/-- The first transpose: axis order (coordinate, sample, feature). -/
theorem transpose201_apply {α : Type} (y : S256x64x32.Idx → α) (c : Fin 32) (n : Fin 256) (b : Fin 64) :
    transpose S32x256x64 [2, 0, 1] y transposes_S256x64x32_S32x256x64_2_0_1 (ix3 c n b) = y (ix3 n b c) := by
  refine transpose_apply [2, 0, 1] y transposes_S256x64x32_S32x256x64_2_0_1 (ix3 c n b) (ix3 n b c) fun a => ?_
  match a with
  | ⟨0, _⟩ => rfl
  | ⟨1, _⟩ => rfl
  | ⟨2, _⟩ => rfl

/-- The second transpose: axis order (coordinate, feature, sample). -/
theorem transpose210_apply {α : Type} (y : S256x64x32.Idx → α) (c : Fin 32) (b : Fin 64) (n : Fin 256) :
    transpose S32x64x256 [2, 1, 0] y transposes_S256x64x32_S32x64x256_2_1_0 (ix3 c b n) = y (ix3 n b c) := by
  refine transpose_apply [2, 1, 0] y transposes_S256x64x32_S32x64x256_2_1_0 (ix3 c b n) (ix3 n b c) fun a => ?_
  match a with
  | ⟨0, _⟩ => rfl
  | ⟨1, _⟩ => rfl
  | ⟨2, _⟩ => rfl

/-- What the first host stretch leaves in the (coordinate, sample, feature) array, as a term over the projected array. -/
theorem after1_v2_eq (W : Valuation τ sig (Elt F)) :
    (StableHlo.after (Gen.hostOps1 (F := F)) W (Proc.devRef .tc main_v2) : S32x256x64.Idx → Elt F .bf16)
      = transpose S32x256x64 [2, 0, 1]
          (shapeCast S256x64x32 (W (Proc.devRef .tc main_v0) : S256x2048.Idx → Elt F .bf16) shapeCasts_S256x2048_S256x64x32)
          transposes_S256x64x32_S32x256x64_2_0_1 := by
  after_results
  rfl

/-- What the first host stretch leaves in the (coordinate, feature, sample) array, as a term over the projected array. -/
theorem after1_v3_eq (W : Valuation τ sig (Elt F)) :
    (StableHlo.after (Gen.hostOps1 (F := F)) W (Proc.devRef .tc main_v3) : S32x64x256.Idx → Elt F .bf16)
      = transpose S32x64x256 [2, 1, 0]
          (shapeCast S256x64x32 (W (Proc.devRef .tc main_v0) : S256x2048.Idx → Elt F .bf16) shapeCasts_S256x2048_S256x64x32)
          transposes_S256x64x32_S32x64x256_2_1_0 := by
  after_results
  rfl

/-- The (coordinate, sample, feature) array after the first host stretch, at an index. -/
theorem after1_v2 (W : Valuation τ sig (Elt F)) (c : Fin 32) (n : Fin 256) (b : Fin 64) :
    (StableHlo.after (Gen.hostOps1 (F := F)) W (Proc.devRef .tc main_v2) : S32x256x64.Idx → Elt F .bf16) (ix3 c n b)
      = (W (Proc.devRef .tc main_v0) : S256x2048.Idx → Elt F .bf16) (ix2 n (Cert.Spec.col b c)) := by
  rw [after1_v2_eq, transpose201_apply, reshape_apply]

/-- The (coordinate, feature, sample) array after the first host stretch, at an index. -/
theorem after1_v3 (W : Valuation τ sig (Elt F)) (c : Fin 32) (b : Fin 64) (n : Fin 256) :
    (StableHlo.after (Gen.hostOps1 (F := F)) W (Proc.devRef .tc main_v3) : S32x64x256.Idx → Elt F .bf16) (ix3 c b n)
      = (W (Proc.devRef .tc main_v0) : S256x2048.Idx → Elt F .bf16) (ix2 n (Cert.Spec.col b c)) := by
  rw [after1_v3_eq, transpose210_apply, reshape_apply]

/-- The result array after the second host stretch: the first argument and the similarity array joined along the columns. -/
theorem after2_v5 (W : Valuation τ sig (Elt F)) :
    (StableHlo.after (Gen.hostOps2 (F := F)) W (Proc.devRef .tc main_v5) : S256x2112.Idx → Elt F .f32)
      = concatenate S256x2112 1
          [⟨S256x2048, (W (Proc.devRef .tc main_arg0) : S256x2048.Idx → Elt F .f32)⟩,
           ⟨S256x64, (W (Proc.devRef .tc main_v4) : S256x64.Idx → Elt F .f32)⟩]
          concatenates_S256x2048_S256x64_S256x2112_d1 := by
  after_results

end Cert.KernelIdeal.HostIdx

end
-- ==== Proof.MmValue.lean ====
/-
  The first kernel's stored values read at an index, on the extended reals.

  The accumulator starts as the zero block; each step adds to the accumulator the product of a
  `128 × 512` block of the left operand with a `512 × 2048` block of the right operand; the block
  written out is the accumulator itself.  On the extended reals the changes of float format are the
  identity, so nothing else is left.
-/
import proofs.«128984_j79843442033274_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.MmV

open Idealize.ShloMosaic Idealize.ShloMosaic.ValueIdx Cert.KernelIdeal Cert.KernelIdeal.Gen

/-- The product's dimension record (rows × shared, shared × columns), under a short name. -/
abbrev D : DotDims S128x512 S512x2048 S128x2048 := dot_S128x512_S512x2048_S128x2048_1_0_0_1_n_n

/-- The zero block: every entry is `0`. -/
theorem pay1_apply (p : Fin 128) (q : Fin 2048) : k0_pay1 (F := Ideal) (ix2 p q) = 0 := by
  unfold k0_pay1
  rw [shapeCast_self]
  exact Ideal.ofBits_zero_f32

/-- Row index of the left operand: the output's row. -/
theorem lhs_0 (i : S128x2048.Idx) (k : D.contr.Idx) : (D.lhsIdx i k 0).val = (i 0).val := by
  unfold DotDims.lhsIdx
  rw [dif_neg (show ¬(0 : Fin S128x512.rank) ∈ D.lhsBatch by decide),
    dif_pos (show (0 : Fin S128x512.rank) ∈ D.lhsNonContracting by decide)]
  rfl
/-- Column index of the left operand: the contraction coordinate. -/
theorem lhs_1 (i : S128x2048.Idx) (k : D.contr.Idx) : (D.lhsIdx i k 1).val = (k ⟨0, by decide⟩).val :=
  D.lhsIdx_val_of_single rfl i k
/-- Row index of the right operand: the contraction coordinate. -/
theorem rhs_0 (i : S128x2048.Idx) (k : D.contr.Idx) : (D.rhsIdx i k 0).val = (k ⟨0, by decide⟩).val :=
  D.rhsIdx_val_of_single rfl i k
/-- Column index of the right operand: the output's column. -/
theorem rhs_1 (i : S128x2048.Idx) (k : D.contr.Idx) : (D.rhsIdx i k 1).val = (i 1).val := by
  unfold DotDims.rhsIdx
  rw [dif_neg (show ¬(1 : Fin S512x2048.rank) ∈ D.rhsBatch by decide),
    dif_pos (show (1 : Fin S512x2048.rank) ∈ D.rhsNonContracting by decide)]
  rfl

/-- The product into a zero accumulator, at an index: the sum over the 512 shared coordinates. -/
theorem matmul_zero_apply (a : FVec Ideal S128x512 .bf16) (b : FVec Ideal S512x2048 .bf16) (p : Fin 128) (q : Fin 2048) :
    FloatOps.matmul (F := Ideal) D none a b (constant (F := Ideal) S128x2048 .f32 0x00000000#32) (ix2 p q)
      = ∑ k : Fin 512, a (ix2 p k) * b (ix2 k q) := by
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 p q) ((contrEquiv1 D 512 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 512 rfl rfl).symm k) = ix2 k q := funext fun a => Fin.ext (by
    match a with
    | ⟨0, _⟩ => exact (rhs_0 _ _).trans hk
    | ⟨1, _⟩ => exact rhs_1 _ _)
  rw [el, er]

/-- One accumulation step: the old accumulator plus the product of the two blocks. -/
theorem pay2_apply (x0 : Vec Ideal S128x512 .f32) (x1 : Vec Ideal S512x2048 .f32) (xs : Vec Ideal S128x2048 .f32)
    (p : Fin 128) (q : Fin 2048) :
    k0_pay2 (F := Ideal) x0 x1 xs (ix2 p q) = xs (ix2 p q) + ∑ k : Fin 512, x0 (ix2 p k) * x1 (ix2 k q) := by
  unfold k0_pay2
  rw [shapeCast_self]
  refine (addf_apply _ _ _).trans ?_
  exact congrArg (xs (ix2 p q) + ·) (matmul_zero_apply _ _ p q)

/-- The block written out is the accumulator: the change of float format is the identity. -/
theorem pay3_eq (v : Vec Ideal S128x2048 .f32) : k0_pay3 (F := Ideal) v = v := rfl

end Cert.KernelIdeal.MmV

end
-- ==== Proof.SumBlocks.lean ====
/-
  A sum over 2048 consecutive indices is the sum of its four consecutive blocks of 512, in any commutative
  additive monoid; here on the extended reals.
-/
import Idealize.ShloMosaic.PureOps.Ideal

open scoped BigOperators

namespace Cert.SumBlocks

/-- The sum over `Fin 2048` cut into four consecutive blocks of 512 indices. -/
theorem sum_four_blocks (g : Fin 2048 → EReal) :
    ∑ k : Fin 2048, g k = ∑ kb : Fin 4, ∑ k : Fin 512, g ⟨kb.val * 512 + k.val, by omega⟩ := by
  have h := (finProdFinEquiv (m := 4) (n := 512)).sum_comp g
  rw [Fintype.sum_prod_type] at h
  rw [← h]
  refine Finset.sum_congr rfl fun kb _ => Finset.sum_congr rfl fun k _ => ?_
  refine congrArg g (Fin.ext ?_)
  simp only [finProdFinEquiv_apply_val]
  omega

/-- The four blocks accumulated from zero, one after the other, give the whole sum. -/
theorem acc_four_blocks (g : Fin 2048 → EReal) :
    ((((0 : EReal) + ∑ k : Fin 512, g ⟨0 * 512 + k.val, by omega⟩)
        + ∑ k : Fin 512, g ⟨1 * 512 + k.val, by omega⟩)
        + ∑ k : Fin 512, g ⟨2 * 512 + k.val, by omega⟩)
        + ∑ k : Fin 512, g ⟨3 * 512 + k.val, by omega⟩ = ∑ k : Fin 2048, g k := by
  rw [sum_four_blocks g, Fin.sum_univ_four, zero_add]
  rfl

end Cert.SumBlocks
-- ==== Proof.MmArray.lean ====
/-
  The first kernel's output array after its region, as one function of the two argument arrays.

  The grid's eight points are `t = 4 i + k`: `i < 2` the block of 128 rows, `k < 4` the block of 512 along the shared
  axis.  At point `t` the left operand's block is rows `128 i …`, columns `512 k …` of the first argument, the right
  operand's block is rows `512 k …` of the second argument, and the output's block is rows `128 i …` of the result.  The
  accumulator after the point `k` of a row block holds the partial sums over the first `k + 1` blocks of the shared axis;
  the output's block is written back at `k = 3` only, when the partial sums are the whole sum over the 2048 shared
  coordinates.  The two row blocks cover the result array, so it ends holding the product of the two arguments.
-/
import proofs.«128984_j79843442033274_2_alg».proof.Proof.MmDat
import proofs.«128984_j79843442033274_2_alg».proof.Proof.MmValue
import proofs.«128984_j79843442033274_2_alg».proof.Proof.SumBlocks
import proofs.«128984_j79843442033274_2_alg».proof.Proof.Spec
import proofs.«128984_j79843442033274_2_alg».proof.Proof.Gen.KernelIdeal.Points
import Idealize.ShloMosaic.Lib.Pipeline.Value
import Idealize.ShloMosaic.Lib.ValueIdx

set_option maxRecDepth 16384

noncomputable section

open scoped BigOperators

namespace Cert.KernelIdeal.MmA

open Cert.KernelIdeal Cert.KernelIdeal.Gen Cert.KernelIdeal.Mm Cert.KernelIdeal.MmV
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The grid has eight points. -/
theorem hN : cfg0.N = 8 := rfl

/-- The printed index maps, decided over the grid: point `t` is row block `t / 4`, shared block `t % 4`. -/
theorem idx_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0)

/-- Row `p` of row block `t / 4`. -/
def row (t : Fin cfg0.N) (p : Fin 128) : Fin 256 := ⟨t.val / 4 * 128 + p.val, by have h : t.val < 8 := t.isLt; omega⟩
/-- Shared coordinate `k` of block `kb`. -/
def mid (kb : Fin 4) (k : Fin 512) : Fin 2048 := ⟨kb.val * 512 + k.val, by omega⟩

/-- The first argument's array, its entries read as extended reals. -/
abbrev argA (c : Dev nD) : (⟨2, ![256, 2048]⟩ : Shape).Idx → EReal := V c main_arg0
/-- The second argument's array, its entries read as extended reals. -/
abbrev argB (c : Dev nD) : (⟨2, ![2048, 2048]⟩ : Shape).Idx → EReal := V c main_arg1

/-- The left operand's block at point `t`, read at `(p, k)`: the first argument at row `128 (t / 4) + p`, column
    `512 (t % 4) + k`. -/
theorem iblk0_0_apply (c : Dev nD) (t : Fin cfg0.N) (p : Fin 128) (k : Fin 512) (r : Fin 256) (j : Fin 2048)
    (hr : r.val = t.val / 4 * 128 + p.val) (hj : j.val = t.val % 4 * 512 + k.val) :
    (iblk0 V c 0 t : Vec Ideal S128x512 .f32) (ix2 p k) = argA V c (ix2 r j) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t 0 * 128 + 1 * p.val = r.val; rw [e0, hr]; omega
  | ⟨1, _⟩ => show win0_0.index t 1 * 512 + 1 * k.val = j.val; rw [e1, hj]; omega

/-- The right operand's block at point `t`, read at `(k, q)`: the second argument at row `512 (t % 4) + k`, column `q`. -/
theorem iblk0_1_apply (c : Dev nD) (t : Fin cfg0.N) (k : Fin 512) (q : Fin 2048) (j : Fin 2048)
    (hj : j.val = t.val % 4 * 512 + k.val) :
    (iblk0 V c 1 t : Vec Ideal S512x2048 .f32) (ix2 k q) = argB V c (ix2 j q) := by
  obtain ⟨-, -, e2, e3, -⟩ := idx_facts t
  unfold iblk0
  rw [View.read_apply]
  show V c main_arg1 _ = V c main_arg1 _
  refine congrArg (V c main_arg1) (funext fun a => Fin.ext ?_)
  match a with
  | ⟨0, _⟩ => show win0_1.index t 0 * 512 + 1 * k.val = j.val; rw [e2, hj]; omega
  | ⟨1, _⟩ => show win0_1.index t 1 * 2048 + 1 * q.val = q.val; rw [e3]; omega

/-- The products of row `r` of the first argument with column `q` of the second, summed over block `kb` of the shared axis. -/
def part (c : Dev nD) (r : Fin 256) (q : Fin 2048) (kb : Fin 4) : EReal :=
  ∑ k : Fin 512, argA V c (ix2 r (mid kb k)) * argB V c (ix2 (mid kb k) q)

/-- One accumulation step at point `t` of shared block `kb`: block `kb`'s partial sum is added. -/
theorem step_apply (c : Dev nD) (t : Fin cfg0.N) (kb : Fin 4) (hk : t.val % 4 = kb.val) (xs : Vec Ideal S128x2048 .f32)
    (p : Fin 128) (q : Fin 2048) :
    k0_pay2 (F := Ideal) (iblk0 V c 0 t) (iblk0 V c 1 t) xs (ix2 p q) = xs (ix2 p q) + part V c (row t p) q kb := by
  rw [pay2_apply]
  refine congrArg (xs (ix2 p q) + ·) (Finset.sum_congr rfl fun k _ => ?_)
  rw [iblk0_0_apply V c t p k (row t p) (mid kb k) rfl (by show kb.val * 512 + k.val = _; rw [hk]),
    iblk0_1_apply V c t k q (mid kb k) (by show kb.val * 512 + k.val = _; rw [hk])]

/-- After the first point of a row block the accumulator holds the first partial sum. -/
theorem acc_k0 (c : Dev nD) (t : Fin cfg0.N) (h : t.val % 4 = 0) (p : Fin 128) (q : Fin 2048) :
    acc V c t.val t.isLt (ix2 p q) = 0 + part V c (row t p) q 0 := by
  rw [acc_first V c t h, step_apply V c t 0 h, pay1_apply]

/-- After the second point, the first two. -/
theorem acc_k1 (c : Dev nD) (t : Fin cfg0.N) (h : t.val % 4 = 1) (p : Fin 128) (q : Fin 2048) :
    acc V c t.val t.isLt (ix2 p q) = (0 + part V c (row t p) q 0) + part V c (row t p) q 1 := by
  have hlt : t.val - 1 < cfg0.N := Nat.lt_of_le_of_lt (Nat.sub_le _ _) t.isLt
  rw [acc_next V c t (by omega), step_apply V c t 1 h]
  have prev := acc_k0 V c ⟨t.val - 1, hlt⟩ (by show (t.val - 1) % 4 = 0; omega) p q
  have hrow : row ⟨t.val - 1, hlt⟩ p = row t p := Fin.ext (by show (t.val - 1) / 4 * 128 + p.val = t.val / 4 * 128 + p.val; omega)
  rw [hrow] at prev
  exact congrArg (· + part V c (row t p) q 1) prev

/-- After the third point, the first three. -/
theorem acc_k2 (c : Dev nD) (t : Fin cfg0.N) (h : t.val % 4 = 2) (p : Fin 128) (q : Fin 2048) :
    acc V c t.val t.isLt (ix2 p q) = ((0 + part V c (row t p) q 0) + part V c (row t p) q 1) + part V c (row t p) q 2 := by
  have hlt : t.val - 1 < cfg0.N := Nat.lt_of_le_of_lt (Nat.sub_le _ _) t.isLt
  rw [acc_next V c t (by omega), step_apply V c t 2 h]
  have prev := acc_k1 V c ⟨t.val - 1, hlt⟩ (by show (t.val - 1) % 4 = 1; omega) p q
  have hrow : row ⟨t.val - 1, hlt⟩ p = row t p := Fin.ext (by show (t.val - 1) / 4 * 128 + p.val = t.val / 4 * 128 + p.val; omega)
  rw [hrow] at prev
  exact congrArg (· + part V c (row t p) q 2) prev

/-- After the last point of the row block, all four. -/
theorem acc_k3 (c : Dev nD) (t : Fin cfg0.N) (h : t.val % 4 = 3) (p : Fin 128) (q : Fin 2048) :
    acc V c t.val t.isLt (ix2 p q)
      = (((0 + part V c (row t p) q 0) + part V c (row t p) q 1) + part V c (row t p) q 2) + part V c (row t p) q 3 := by
  have hlt : t.val - 1 < cfg0.N := Nat.lt_of_le_of_lt (Nat.sub_le _ _) t.isLt
  rw [acc_next V c t (by omega), step_apply V c t 3 h]
  have prev := acc_k2 V c ⟨t.val - 1, hlt⟩ (by show (t.val - 1) % 4 = 2; omega) p q
  have hrow : row ⟨t.val - 1, hlt⟩ p = row t p := Fin.ext (by show (t.val - 1) / 4 * 128 + p.val = t.val / 4 * 128 + p.val; omega)
  rw [hrow] at prev
  exact congrArg (· + part V c (row t p) q 3) prev

/-- What the last point of a row block writes out, at `(p, q)`: the product's entry at row `128 (t / 4) + p`, column `q`. -/
theorem out_apply (c : Dev nD) (t : Fin cfg0.N) (h : t.val % 4 = 3) (p : Fin 128) (q : Fin 2048) :
    k0_pay3 (F := Ideal) (acc V c t.val t.isLt) (ix2 p q) = Cert.Spec.proj (V c main_arg0) (V c main_arg1) (row t p) q := by
  rw [pay3_eq, acc_k3 V c t h]
  exact Cert.SumBlocks.acc_four_blocks fun k => argA V c (ix2 (row t p) k) * argB V c (ix2 k q)

/-- The product of the two argument arrays, as contents of the result array. -/
abbrev G (c : Dev nD) : S256x2048.Idx → EReal :=
  fun i => Cert.Spec.proj (V c main_arg0) (V c main_arg1) ⟨(i 0).val, idx2_lt0 i⟩ ⟨(i 1).val, idx2_lt1 i⟩

/-- An entry of the product depends on the row and the column through their values only. -/
theorem proj_congr (A : (⟨2, ![256, 2048]⟩ : Shape).Idx → EReal) (B : (⟨2, ![2048, 2048]⟩ : Shape).Idx → EReal)
    {r r' : Fin 256} {q q' : Fin 2048} (hr : r.val = r'.val) (hq : q.val = q'.val) :
    Cert.Spec.proj A B r q = Cert.Spec.proj A B r' q' := by
  obtain rfl := Fin.ext hr
  obtain rfl := Fin.ext hq
  rfl

/-- What a point that writes the output's block back writes: its block of the product. -/
theorem flushed_eq (c : Dev nD) (t : Fin cfg0.N) (hf : (cfg0.win 2).flush t = true) :
    (dat0 V c).flushed 2 t = ((cfg0.win 2).blk t).view.read (Elt Ideal) (G V c) := by
  have h3 : t.val % 4 = 3 := (flush0_2 t).mp hf
  obtain ⟨-, -, -, -, e4, e5⟩ := idx_facts t
  show (cfg0.win 2).cut (grid0.coords t) ((dat0 V c).after 2 t) = _
  rw [after0_2]
  funext j
  obtain ⟨p, q, rfl⟩ : ∃ (p : Fin 128) (q : Fin 2048), j = ix2 p q := ⟨j 0, j 1, eq_ix2 j⟩
  show k0_pay3 (F := Ideal) (acc V c t.val t.isLt) (ix2 p q) = G V c (((cfg0.win 2).blk t).view.emb (ix2 p q))
  refine (out_apply V c t h3 p q).trans (proj_congr _ _ ?_ ?_)
  · show t.val / 4 * 128 + p.val = win0_2.index t 0 * 128 + 1 * p.val
    rw [e4]; omega
  · show q.val = win0_2.index t 1 * 2048 + 1 * q.val
    rw [e5]; omega

/-- An index of the result array is in point `t`'s block iff each coordinate is in the block's range on its axis. -/
theorem mem_blk (t : Fin cfg0.N) (i : S256x2048.Idx) :
    i ∈ ((cfg0.win 2).blk t).view.set ↔ ∀ a : Fin 2, win0_2.index t a * S128x2048.size a ≤ (i a).val ∧ (i a).val < win0_2.index t a * S128x2048.size a + S128x2048.size a := by
  show i ∈ ((View.whole main_v0).slice (win0_2.rect t)).set ↔ _
  rw [View.set_slice_whole, Rect.mem_set_unit]
  exact Iff.rfl

/-- Every index of the result array is in the block of the last point of its row block. -/
theorem cover (i : S256x2048.Idx) : ∃ t : Fin cfg0.N, (cfg0.win 2).flush t = true ∧ i ∈ ((cfg0.win 2).blk t).view.set := by
  have hi0 : (i 0).val < 256 := idx2_lt0 i
  have hi1 : (i 1).val < 2048 := idx2_lt1 i
  let t : Fin cfg0.N := ⟨4 * ((i 0).val / 128) + 3, by show _ < 8; omega⟩
  have htv : t.val = 4 * ((i 0).val / 128) + 3 := rfl
  obtain ⟨-, -, -, -, e4, e5⟩ := idx_facts t
  refine ⟨t, (flush0_2 t).mpr (by rw [htv]; omega), ?_⟩
  rw [mem_blk]
  intro a
  match a with
  | ⟨0, _⟩ =>
    show win0_2.index t 0 * 128 ≤ (i 0).val ∧ (i 0).val < win0_2.index t 0 * 128 + 128
    rw [e4, htv]; omega
  | ⟨1, _⟩ =>
    show win0_2.index t 1 * 2048 ≤ (i 1).val ∧ (i 1).val < win0_2.index t 1 * 2048 + 2048
    rw [e5]; omega

/-- The result array after the region: the product of the two argument arrays as the region finds them. -/
theorem final0 (c : Dev nD) :
    (dat0 V c).arrAt 2 cfg0.N = (fun i : S256x2048.Idx =>
      Cert.Spec.proj (V c main_arg0) (V c main_arg1) ⟨(i 0).val, idx2_lt0 i⟩ ⟨(i 1).val, idx2_lt1 i⟩) :=
  (dat0 V c).arrAt_eq_of_cover 2 (G V c) (flushed_eq V c) cover

end Cert.KernelIdeal.MmA

end
-- ==== Proof.L1Value.lean ====
/-
  The second kernel's body, read one element at a time over the extended reals.

  The accumulator starts at zero; trip `k` adds `|x0 k r b − x1 k b j|` at `(r, b, j)`; so after all 32 trips it holds
  the sum over the coordinates of the absolute differences, and the stored block at `(r, b)` is the sum over the 256
  samples `j` of the exponential of the negated sum.
-/
import proofs.«128984_j79843442033274_2_alg».proof.Proof.L1Fn
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.L1V

open Idealize.ShloMosaic Idealize.ShloMosaic.ValueIdx Cert.KernelIdeal Cert.KernelIdeal.Gen

/-- The loop runs 32 trips. -/
theorem trips_eq : k1_t1_loop.trips = 32 := by decide +kernel

/-- Trip `k` loads the first operand from `(k, 0, 0)`. -/
theorem off1_val : ∀ (k : Fin k1_t1_loop.trips) (a : Fin 3), k1_off1 k a = (![k.val, 0, 0] : Fin 3 → Nat) a := by
  decide +kernel

/-- Trip `k` loads the second operand from `(k, 0, 0)`. -/
theorem off2_val : ∀ (k : Fin k1_t1_loop.trips) (a : Fin 3), k1_off2 k a = (![k.val, 0, 0] : Fin 3 → Nat) a := by
  decide +kernel

/-- The initial accumulator is zero everywhere. -/
theorem pay1_apply (i : S64x64x256.Idx) : k1_pay1 (F := Ideal) i = 0 := by
  unfold k1_pay1
  rw [shapeCast_self]
  exact Ideal.ofBits_zero_f32

/-- One trip's update at `(r, b, j)`: the accumulator there plus the absolute difference of the two slabs' entries. -/
theorem pay2_apply (v12 : Vec Ideal S1x64x64 .bf16) (v15 : Vec Ideal S1x64x256 .bf16) (v24 : Vec Ideal S64x64x256 .f32)
    (r b : Fin 64) (j : Fin 256) :
    k1_pay2 (F := Ideal) v12 v15 v24 (ix3 r b j)
      = v24 (ix3 r b j) + max (v12 (ix3 (0 : Fin 1) r b) - v15 (ix3 (0 : Fin 1) b j))
          (-(v12 (ix3 (0 : Fin 1) r b) - v15 (ix3 (0 : Fin 1) b j))) := by
  have ha : broadcastTo S64x64x256 (shapeCast S64x64x1 (shapeCast S64x64 v12 shapeCasts_S1x64x64_S64x64)
      shapeCasts_S64x64_S64x64x1) broadcasts_S64x64x1_S64x64x256 (ix3 r b j) = v12 (ix3 (0 : Fin 1) r b) := by
    refine (broadcastTo_apply _ _ (ix3 r b j) (ix3 r b (0 : Fin 1)) (fun a => ?_)).trans ?_
    · match a with
      | ⟨0, _⟩ => rfl
      | ⟨1, _⟩ => rfl
      | ⟨2, _⟩ => rfl
    refine (shapeCast_apply _ _ (ix3 r b (0 : Fin 1)) (ix2 r b) ?_).trans ?_
    · rw [Shape.rowMajor_val_two, Shape.rowMajor_val_three]
      show r.val * 64 + b.val = (r.val * 64 + b.val) * 1 + 0
      omega
    exact shapeCast_1ab_ab_apply _ _ r b
  have hb : broadcastTo S64x64x256 (shapeCast S1x64x256 (shapeCast S64x256 v15 shapeCasts_S1x64x256_S64x256)
      shapeCasts_S64x256_S1x64x256) broadcasts_S1x64x256_S64x64x256 (ix3 r b j) = v15 (ix3 (0 : Fin 1) b j) := by
    refine (broadcastTo_apply _ _ (ix3 r b j) (ix3 (0 : Fin 1) b j) (fun a => ?_)).trans ?_
    · match a with
      | ⟨0, _⟩ => rfl
      | ⟨1, _⟩ => rfl
      | ⟨2, _⟩ => rfl
    refine (shapeCast_ab_1ab_apply _ _ (0 : Fin 1) b j).trans ?_
    exact shapeCast_1ab_ab_apply _ _ b j
  unfold k1_pay2
  rw [shapeCast_self]
  show v24 (ix3 r b j) + max (_ - _) (-(_ - _)) = _
  rw [ha, hb]

/-- Trip `k`'s slab of the first operand at `(0, r, b)` is the operand at `(k, r, b)`. -/
theorem slab0_apply (x0 : Vec Ideal S32x64x64 .bf16) (k : Fin k1_t1_loop.trips) (c : Fin 32) (hc : c.val = k.val)
    (r b : Fin 64) : Cert.KernelIdeal.L1.slab0 x0 k (ix3 (0 : Fin 1) r b) = x0 (ix3 c r b) := by
  show x0 _ = x0 _
  congr 1
  funext a
  apply Fin.ext
  match a with
  | ⟨0, _⟩ => show k1_off1 k 0 + 1 * 0 = c.val; rw [off1_val k 0, hc]; show k.val + 1 * 0 = k.val; omega
  | ⟨1, _⟩ => show k1_off1 k 1 + 1 * r.val = r.val; rw [off1_val k 1]; show 0 + 1 * r.val = r.val; omega
  | ⟨2, _⟩ => show k1_off1 k 2 + 1 * b.val = b.val; rw [off1_val k 2]; show 0 + 1 * b.val = b.val; omega

/-- Trip `k`'s slab of the second operand at `(0, b, j)` is the operand at `(k, b, j)`. -/
theorem slab1_apply (x1 : Vec Ideal S32x64x256 .bf16) (k : Fin k1_t1_loop.trips) (c : Fin 32) (hc : c.val = k.val)
    (b : Fin 64) (j : Fin 256) : Cert.KernelIdeal.L1.slab1 x1 k (ix3 (0 : Fin 1) b j) = x1 (ix3 c b j) := by
  show x1 _ = x1 _
  congr 1
  funext a
  apply Fin.ext
  match a with
  | ⟨0, _⟩ => show k1_off2 k 0 + 1 * 0 = c.val; rw [off2_val k 0, hc]; show k.val + 1 * 0 = k.val; omega
  | ⟨1, _⟩ => show k1_off2 k 1 + 1 * b.val = b.val; rw [off2_val k 1]; show 0 + 1 * b.val = b.val; omega
  | ⟨2, _⟩ => show k1_off2 k 2 + 1 * j.val = j.val; rw [off2_val k 2]; show 0 + 1 * j.val = j.val; omega

/-- The absolute difference of the operands' entries at coordinate `c`, row `r`, feature `b`, sample `j`. -/
abbrev absd (x0 : Vec Ideal S32x64x64 .bf16) (x1 : Vec Ideal S32x64x256 .bf16) (c : Fin 32) (r b : Fin 64) (j : Fin 256) :
    EReal :=
  max (x0 (ix3 c r b) - x1 (ix3 c b j)) (-(x0 (ix3 c r b) - x1 (ix3 c b j)))

/-- After `n` trips the accumulator at `(r, b, j)` is the sum of the first `n` coordinates' absolute differences. -/
theorem accum_apply (x0 : Vec Ideal S32x64x64 .bf16) (x1 : Vec Ideal S32x64x256 .bf16) (r b : Fin 64) (j : Fin 256) :
    ∀ (n : ℕ) (hn : n ≤ 32), Cert.KernelIdeal.L1.accum (F := Ideal) x0 x1 n (ix3 r b j)
      = ∑ c : Fin n, absd x0 x1 ⟨c.val, Nat.lt_of_lt_of_le c.isLt hn⟩ r b j
  | 0, _ => by
    rw [Cert.KernelIdeal.L1.accum_zero, pay1_apply]
    exact (Finset.sum_empty).symm
  | n + 1, hn => by
    have hk : n < k1_t1_loop.trips := by rw [trips_eq]; omega
    have hs := Cert.KernelIdeal.L1.accum_succ (F := Ideal) x0 x1 ⟨n, hk⟩
    have hs' : Cert.KernelIdeal.L1.accum (F := Ideal) x0 x1 (n + 1)
        = k1_pay2 (Cert.KernelIdeal.L1.slab0 x0 ⟨n, hk⟩) (Cert.KernelIdeal.L1.slab1 x1 ⟨n, hk⟩)
            (Cert.KernelIdeal.L1.accum x0 x1 n) := hs
    rw [hs', pay2_apply, slab0_apply x0 ⟨n, hk⟩ ⟨n, by omega⟩ rfl, slab1_apply x1 ⟨n, hk⟩ ⟨n, by omega⟩ rfl,
      accum_apply x0 x1 r b j n (by omega), Fin.sum_univ_castSucc]
    rfl

/-- The stored block at `(r, b)`: the sum over the samples of the exponential of the negated accumulator. -/
theorem pay3_apply (v5 : Vec Ideal S64x64x256 .f32) (r b : Fin 64) :
    k1_pay3 (F := Ideal) v5 (ix2 r b) = ∑ j : Fin 256, Ideal.exp (-(v5 (ix3 r b j))) := by
  unfold k1_pay3
  refine (Ideal.multiReduction_add_single _ _ reduces_S64x64x256_S64x64 _ _ (ix2 r b)).trans ?_
  show ∑ j : Fin 256, _ = _
  refine Finset.sum_congr rfl fun j _ => ?_
  show Ideal.exp (Ideal.ofBits .f32 0x00000000#32 - v5 _) = _
  rw [Ideal.ofBits_zero_f32, zero_sub]
  have hl : reduces_S64x64x256_S64x64.lift (ix2 r b) j = ix3 r b j := funext fun a => Fin.ext (by
    match a with
    | ⟨0, _⟩ => rfl
    | ⟨1, _⟩ => rfl
    | ⟨2, _⟩ => rfl)
  rw [hl]

/-- The body's stored block at `(r, b)`. -/
theorem out1_apply (x0 : Vec Ideal S32x64x64 .bf16) (x1 : Vec Ideal S32x64x256 .bf16) (r : Fin 64) (b : Fin 64) :
    Cert.KernelIdeal.L1.out1 (F := Ideal) x0 x1 (ix2 r b)
      = ∑ j : Fin 256, Ideal.exp (-(∑ c : Fin 32, max (x0 (ix3 c r b) - x1 (ix3 c b j)) (-(x0 (ix3 c r b) - x1 (ix3 c b j))))) := by
  unfold Cert.KernelIdeal.L1.out1
  rw [pay3_apply]
  refine Finset.sum_congr rfl fun j _ => ?_
  have h32 : k1_t1_loop.trips = 32 := trips_eq
  rw [h32, accum_apply x0 x1 r b j 32 (Nat.le_refl _)]

end Cert.KernelIdeal.L1V

end
-- ==== Proof.L1Array.lean ====
/-
  The second kernel's output array after its region, as one function of the two operand arrays.

  Grid point `t` of 4 holds rows `64 t … 64 t + 63` of the first operand (its middle axis) and the whole second
  operand, and writes rows `64 t … 64 t + 63` of the output.  When both operand arrays hold a matrix `M` laid out
  coordinate-first — the first at `(c, n, b)`, the second at `(c, b, n)`, both `M n (col b c)` — every point's block
  of the output is the similarity `sim M` at that block's rows, and the four blocks tile the array.
-/
import proofs.«128984_j79843442033274_2_alg».proof.Proof.L1Dat
import proofs.«128984_j79843442033274_2_alg».proof.Proof.Spec
import proofs.«128984_j79843442033274_2_alg».proof.Proof.L1Value
import Idealize.ShloMosaic.Lib.Pipeline.Value
import Idealize.ShloMosaic.Lib.ValueIdx

set_option maxRecDepth 16384

noncomputable section

open scoped BigOperators

namespace Cert.KernelIdeal.L1A

open Cert.KernelIdeal Cert.KernelIdeal.Gen Cert.KernelIdeal.L1
open Idealize.ShloMosaic Idealize.ShloMosaic.TcCoe Idealize.ShloMosaic.ValueIdx Idealize.SL.Sem
open Idealize.ShloMosaic.Pipeline (Dat)

-- the TensorCore's buffer contents when the second kernel's region is entered
variable (V : (c : Dev nD) → (b : Ref sig .tc) → Buf (Elt Ideal) ((c : Thread nD τ).loc b))

/-! ## The block indices over the grid -/

/-- The block index of each window at point `t`: the first operand's is `(0, t, 0)`, the second's `(0, 0, 0)`, the
    output's `(t, 0)`. -/
theorem idx_facts : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 2) = t.val ∧ win1_2.index t (1 : Fin 2) = 0 :=
  (by decide +kernel : ∀ t : Fin grid1.N, _)

/-! ## The operand blocks, element by element -/

/-- The first operand's block at point `t` is rows `64 t … 64 t + 63` (middle axis) of its array. -/
theorem iblk_0_apply (c : Dev nD) (t : Fin cfg1.N) (x : S32x64x64.Idx) (k : S32x256x64.Idx)
    (hk0 : (k 0).val = (x 0).val) (hk1 : (k 1).val = 64 * t.val + (x 1).val) (hk2 : (k 2).val = (x 2).val) :
    (iblk1 V c 0 t : Vec Ideal S32x64x64 .bf16) x = (V c main_v2 : S32x256x64.Idx → Elt Ideal .bf16) k := by
  obtain ⟨e0, e1, e2, -⟩ := idx_facts t
  unfold iblk1
  rw [View.read_apply]
  show V c main_v2 _ = V c main_v2 _
  congr 1
  funext a
  apply Fin.ext
  match a with
  | ⟨0, _⟩ => show win1_0.index t (0 : Fin 3) * 32 + 1 * (x 0).val = (k 0).val; rw [e0, hk0]; omega
  | ⟨1, _⟩ => show win1_0.index t (1 : Fin 3) * 64 + 1 * (x 1).val = (k 1).val; rw [e1, hk1]; omega
  | ⟨2, _⟩ => show win1_0.index t (2 : Fin 3) * 64 + 1 * (x 2).val = (k 2).val; rw [e2, hk2]; omega

/-- The second operand's block at every point is its whole array. -/
theorem iblk_1_apply (c : Dev nD) (t : Fin cfg1.N) (x : S32x64x256.Idx) :
    (iblk1 V c 1 t : Vec Ideal S32x64x256 .bf16) x = (V c main_v3 : S32x64x256.Idx → Elt Ideal .bf16) x := by
  obtain ⟨-, -, -, e0, e1, e2, -⟩ := idx_facts t
  unfold iblk1
  rw [View.read_apply]
  show V c main_v3 _ = V c main_v3 _
  congr 1
  funext a
  apply Fin.ext
  match a with
  | ⟨0, _⟩ => show win1_1.index t (0 : Fin 3) * 32 + 1 * (x 0).val = (x 0).val; rw [e0]; omega
  | ⟨1, _⟩ => show win1_1.index t (1 : Fin 3) * 64 + 1 * (x 1).val = (x 1).val; rw [e1]; omega
  | ⟨2, _⟩ => show win1_1.index t (2 : Fin 3) * 256 + 1 * (x 2).val = (x 2).val; rw [e2]; omega

/-! ## One point's output block -/

/-- The array the output ends holding: the similarity of `M`, row by feature. -/
abbrev G (M : Fin 256 → Fin 2048 → EReal) : S256x64.Idx → Elt Ideal .f32 :=
  fun i => Cert.Spec.sim M ⟨(i 0).val, idx2_lt0 i⟩ ⟨(i 1).val, idx2_lt1 i⟩

/-- The body's function on blocks that hold `M`: when the first block's row `r` is `M`'s row `64 t + r` and the
    second block is all of `M`, the stored block at `(r, b)` is the similarity of sample `64 t + r` at feature `b`. -/
theorem out_at (M : Fin 256 → Fin 2048 → EReal) (x0 : Vec Ideal S32x64x64 .bf16) (x1 : Vec Ideal S32x64x256 .bf16) (t : Nat)
    (hx0 : ∀ (cc : Fin 32) (r b : Fin 64) (q : Fin 256), q.val = 64 * t + r.val → x0 (ix3 cc r b) = M q (Cert.Spec.col b cc))
    (hx1 : ∀ (cc : Fin 32) (b : Fin 64) (n : Fin 256), x1 (ix3 cc b n) = M n (Cert.Spec.col b cc))
    (j : S64x64.Idx) (q : Fin 256) (b : Fin 64) (hq : q.val = 64 * t + (j 0).val) (hb : b.val = (j 1).val) :
    out1 (F := Ideal) x0 x1 j = Cert.Spec.sim M q b := by
  obtain ⟨r, b', rfl⟩ : ∃ r b' : Fin 64, j = ix2 r b' := ⟨j 0, j 1, eq_ix2 j⟩
  obtain rfl : b = b' := Fin.ext hb
  rw [L1V.out1_apply]
  unfold Cert.Spec.sim Cert.Spec.l1
  refine Finset.sum_congr rfl fun p _ => ?_
  refine congrArg Ideal.exp (congrArg Neg.neg (Finset.sum_congr rfl fun cc _ => ?_))
  rw [hx0 cc r b q hq, hx1 cc b p]

variable (M : Fin 256 → Fin 2048 → EReal)

/-- What point `t` writes back is block `t` of `G M`, when the operand arrays hold `M` coordinate-first. -/
theorem flushed2_eq (c : Dev nD)
    (h2 : ∀ (cc : Fin 32) (n : Fin 256) (b : Fin 64), (V c main_v2 : S32x256x64.Idx → Elt Ideal .bf16) (ix3 cc n b) = M n (Cert.Spec.col b cc))
    (h3 : ∀ (cc : Fin 32) (b : Fin 64) (n : Fin 256), (V c main_v3 : S32x64x256.Idx → Elt Ideal .bf16) (ix3 cc b n) = M n (Cert.Spec.col b cc))
    (t : Fin cfg1.N) :
    (dat1 V c).flushed 2 t = ((cfg1.win 2).blk t).view.read (Elt Ideal) (G M) := by
  show (cfg1.win 2).cut (grid1.coords t) ((dat1 V c).after 2 t) = _
  rw [after1_2]
  obtain ⟨-, -, -, -, -, -, e0, e1⟩ := idx_facts t
  funext j
  show out1 (F := Ideal) (iblk1 V c 0 t) (iblk1 V c 1 t) j = G M (((cfg1.win 2).blk t).view.emb j)
  refine out_at M _ _ t.val (fun cc r b q hq => ?_) (fun cc b n => ?_) j _ _ ?_ ?_
  · exact (iblk_0_apply V c t (ix3 cc r b) (ix3 cc q b) rfl hq rfl).trans (h2 cc q b)
  · exact (iblk_1_apply V c t (ix3 cc b n)).trans (h3 cc b n)
  · show win1_2.index t (0 : Fin 2) * 64 + 1 * (j 0).val = 64 * t.val + (j 0).val; rw [e0]; omega
  · show win1_2.index t (1 : Fin 2) * 64 + 1 * (j 1).val = (j 1).val; rw [e1]; omega

/-! ## The blocks tile the array -/

/-- An index of the array is in point `t`'s block iff each coordinate is in the block's range on its axis. -/
theorem mem_blk2 (t : Fin cfg1.N) (i : S256x64.Idx) :
    i ∈ ((cfg1.win 2).blk t).view.set ↔ ∀ a : Fin 2, win1_2.index t a * S64x64.size a ≤ (i a).val ∧ (i a).val < win1_2.index t a * S64x64.size a + S64x64.size a := by
  show i ∈ ((View.whole main_v4).slice (win1_2.rect t)).set ↔ _
  rw [View.set_slice_whole, Rect.mem_set_unit]
  exact Iff.rfl

/-- Row `r` of the array is in the block of point `r / 64`, which is written back (every point is). -/
theorem cover2 (i : S256x64.Idx) : ∃ t : Fin cfg1.N, (cfg1.win 2).flush t = true ∧ i ∈ ((cfg1.win 2).blk t).view.set := by
  have hi0 : (i 0).val < 256 := idx2_lt0 i
  have hi1 : (i 1).val < 64 := idx2_lt1 i
  have hN : cfg1.N = 4 := N_1
  obtain ⟨t, ht⟩ : ∃ t : Fin cfg1.N, t.val = (i 0).val / 64 := ⟨⟨(i 0).val / 64, by rw [hN]; omega⟩, rfl⟩
  obtain ⟨-, -, -, -, -, -, e0, e1⟩ := idx_facts t
  refine ⟨t, flush1_2 t, ?_⟩
  rw [mem_blk2]
  intro a
  match a with
  | ⟨0, _⟩ => show win1_2.index t (0 : Fin 2) * 64 ≤ (i 0).val ∧ (i 0).val < win1_2.index t (0 : Fin 2) * 64 + 64; rw [e0, ht]; omega
  | ⟨1, _⟩ => show win1_2.index t (1 : Fin 2) * 64 ≤ (i 1).val ∧ (i 1).val < win1_2.index t (1 : Fin 2) * 64 + 64; rw [e1]; omega

/-! ## The array after the region -/

/-- The output array after the region is the similarity of `M`, when the operand arrays hold `M` coordinate-first. -/
theorem final1 (c : Dev nD)
    (h2 : ∀ (cc : Fin 32) (n : Fin 256) (b : Fin 64), (V c main_v2 : S32x256x64.Idx → Elt Ideal .bf16) (ix3 cc n b) = M n (Cert.Spec.col b cc))
    (h3 : ∀ (cc : Fin 32) (b : Fin 64) (n : Fin 256), (V c main_v3 : S32x64x256.Idx → Elt Ideal .bf16) (ix3 cc b n) = M n (Cert.Spec.col b cc)) :
    (dat1 V c).arrAt 2 cfg1.N = (fun i : S256x64.Idx => Cert.Spec.sim M ⟨(i 0).val, idx2_lt0 i⟩ ⟨(i 1).val, idx2_lt1 i⟩) :=
  (dat1 V c).arrAt_eq_of_cover 2 (G M) (fun t _ => flushed2_eq V M c h2 h3 t) cover2

end Cert.KernelIdeal.L1A

end
-- ==== Proof.Final.lean ====
/-
  The result buffer at the return, as one function of the two argument arrays.

  The final concatenation joins the first argument, which no segment changes, with the second kernel's output array.
  That array is the similarity array of the projection: the second kernel's two operand arrays are the two transposed
  views of the first kernel's output array, and that array is the product of the two arguments.
-/
import proofs.«128984_j79843442033274_2_alg».proof.Proof.Run
import proofs.«128984_j79843442033274_2_alg».proof.Proof.HostIdx
import proofs.«128984_j79843442033274_2_alg».proof.Proof.MmArray
import proofs.«128984_j79843442033274_2_alg».proof.Proof.L1Array
import proofs.«128984_j79843442033274_2_alg».proof.Proof.Spec
import Idealize.ShloMosaic.Lib.ValueIdx

set_option maxRecDepth 16384

noncomputable section

namespace Cert.KernelIdeal.Final

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-- The first argument is unchanged when the second kernel returns. -/
theorem B3_main_arg0 : Run.B3 m c (Proc.devRef .tc main_arg0) = m ((c : Thread nD τ).loc main_arg0) :=
  calc Run.B3 m c (Proc.devRef .tc main_arg0)
    _ = Run.B2 m c (Proc.devRef .tc main_arg0) := Run.B3_of_ne m c main_arg0 (by decide)
    _ = Run.B1 m c (Proc.devRef .tc main_arg0) := StableHlo.after_of_writes_sub hostOps1 _ hostOps1_writes (by decide)
    _ = Run.B0 m c (Proc.devRef .tc main_arg0) :=
        (Run.B1_arr m c 0).trans (((Mm.dat0 (Run.E0 m) c).arrAt_in 0 rfl _).trans (Mm.A_eq0 (Run.E0 m) c 0))
    _ = m ((c : Thread nD τ).loc main_arg0) := rfl

/-- The first kernel's output array at `(n, k)` is entry `(n, k)` of the product of the two arguments. -/
theorem B1_main_v0_apply (n : Fin 256) (k : Fin 2048) :
    (Run.B1 m c (Proc.devRef .tc main_v0) : S256x2048.Idx → Elt Ideal .bf16) (ix2 n k)
      = Cert.Spec.proj (m ((c : Thread nD τ).loc main_arg0)) (m ((c : Thread nD τ).loc main_arg1)) n k := by
  have h1 : Run.B1 m c (Proc.devRef .tc main_v0) = (Mm.dat0 (Run.E0 m) c).arrAt 2 cfg0.N := Run.B1_arr m c 2
  have h2 := Cert.KernelIdeal.MmA.final0 (V := Run.E0 m) (c := c)
  have h3 := congrFun (h1.trans h2) (ix2 n k)
  exact h3

/-- The second kernel's first operand array at `(cc, n, b)` is the product at sample `n`, column `b * 32 + cc`. -/
theorem E2_main_v2 (cc : Fin 32) (n : Fin 256) (b : Fin 64) :
    Run.E2 m c main_v2 (ix3 cc n b)
      = Cert.Spec.proj (m ((c : Thread nD τ).loc main_arg0)) (m ((c : Thread nD τ).loc main_arg1)) n (Cert.Spec.col b cc) :=
  (HostIdx.after1_v2 (Run.B1 m c) cc n b).trans (B1_main_v0_apply m c n (Cert.Spec.col b cc))

/-- The second kernel's second operand array at `(cc, b, n)` is the product at sample `n`, column `b * 32 + cc`. -/
theorem E2_main_v3 (cc : Fin 32) (b : Fin 64) (n : Fin 256) :
    Run.E2 m c main_v3 (ix3 cc b n)
      = Cert.Spec.proj (m ((c : Thread nD τ).loc main_arg0)) (m ((c : Thread nD τ).loc main_arg1)) n (Cert.Spec.col b cc) :=
  (HostIdx.after1_v3 (Run.B1 m c) cc b n).trans (B1_main_v0_apply m c n (Cert.Spec.col b cc))

/-- The second kernel's output array is the similarity array of the two arguments. -/
theorem B3_main_v4 :
    (Run.B3 m c (Proc.devRef .tc main_v4) : S256x64.Idx → Elt Ideal .f32)
      = Cert.Spec.out (m ((c : Thread nD τ).loc main_arg0)) (m ((c : Thread nD τ).loc main_arg1)) := by
  have h1 : Run.B3 m c (Proc.devRef .tc main_v4) = (L1.dat1 (Run.E2 m) c).arrAt 2 cfg1.N := Run.B3_arr m c 2
  have h2 := Cert.KernelIdeal.L1A.final1 (V := Run.E2 m) (c := c)
    (M := Cert.Spec.proj (m ((c : Thread nD τ).loc main_arg0)) (m ((c : Thread nD τ).loc main_arg1)))
    (h2 := E2_main_v2 m c) (h3 := E2_main_v3 m c)
  exact h1.trans h2

/-- The result buffer at the return: the first argument with the similarity array joined on along the columns. -/
theorem result_eq :
    (Run.B4 m c (Proc.devRef .tc main_v5) : S256x2112.Idx → Elt Ideal .f32)
      = concatenate S256x2112 1
          [⟨S256x2048, (m ((c : Thread nD τ).loc main_arg0) : S256x2048.Idx → Elt Ideal .f32)⟩,
           ⟨S256x64, Cert.Spec.out (m ((c : Thread nD τ).loc main_arg0)) (m ((c : Thread nD τ).loc main_arg1))⟩]
          concatenates_S256x2048_S256x64_S256x2112_d1 := by
  refine (HostIdx.after2_v5 (Run.B3 m c)).trans ?_
  rw [B3_main_arg0 m c, B3_main_v4 m c]

end Cert.KernelIdeal.Final

end
-- ==== Proof.lean ====
/-
  Minibatch discrimination: with `M = f · T` (256 × 2048, column `b · 32 + c` holding coordinate `c` of feature `b`),
  the result is `f` with 64 more columns, column `2048 + b` of row `q` being `∑ p, exp (−∑ c, |M q (b, c) − M p (b, c)|)`.

  The kernel program computes `M` in a first pallas_call, the product accumulated over four blocks of the shared axis
  and rounded on the way out (the identity on the extended reals); lays it out twice by a reshape and two transposes;
  and in a second pallas_call accumulates, for each tile of 64 rows, the absolute differences coordinate by coordinate
  and sums the exponentials of the negated distances over all samples.  The reference does the same with whole-array
  operations.  Both results are the specification's array (`Cert.Spec.out`), joined to `f`: the four blocks add up to the
  whole sum, and sums on the extended reals may be regrouped freely, so no finiteness of the inputs is used.

  The frames: each kernel program runs as four segments (region, layout operations, region, concatenation) whose
  run ends with every unscoped buffer at a named valuation; the arguments are read back off it unchanged.  The
  reference's frame is its run with the result dropped.  The idealization rewrote nothing, so `preserves` is trivial.
-/
import proofs.«128984_j79843442033274_2_alg».proof.Defs
import proofs.«128984_j79843442033274_2_alg».proof.Proof.Gen.Kernel
import proofs.«128984_j79843442033274_2_alg».proof.Proof.Gen.KernelIdeal
import proofs.«128984_j79843442033274_2_alg».proof.Proof.Gen.ReferenceIdeal
import proofs.«128984_j79843442033274_2_alg».proof.Proof.Gen.Pre_finite_inputs
import proofs.«128984_j79843442033274_2_alg».proof.Proof.Gen.ReferenceIdeal.Run
import proofs.«128984_j79843442033274_2_alg».proof.Proof.Gen.ReferenceIdeal.Read
import proofs.«128984_j79843442033274_2_alg».proof.Proof.RefSpec
import proofs.«128984_j79843442033274_2_alg».proof.Proof.Run
import proofs.«128984_j79843442033274_2_alg».proof.Proof.KRun
import proofs.«128984_j79843442033274_2_alg».proof.Proof.Final
import Idealize.ShloMosaic.Adequacy
import Idealize.ShloMosaic.Init

noncomputable section

namespace Cert.Proof

open Idealize.ShloMosaic Idealize.ShloMosaic.TcCoe Idealize.SL.Sem

/-- The reference's result term is `f` joined to the specification's array. -/
theorem ref_result (x0 : (⟨Cert.ReferenceIdeal.S256x2048, .f32⟩ : BufTy).Contents (Elt Ideal)) (x1 : (⟨Cert.ReferenceIdeal.S2048x2048, .f32⟩ : BufTy).Contents (Elt Ideal)) :
    Cert.ReferenceIdeal.Read.val_main_v12 (F := Ideal) x0 x1
      = concatenate Cert.ReferenceIdeal.S256x2112 1 [⟨Cert.ReferenceIdeal.S256x2048, x0⟩, ⟨Cert.ReferenceIdeal.S256x64, Cert.Spec.out x0 x1⟩] Cert.ReferenceIdeal.Facts₀.concatenates_S256x2048_S256x64_S256x2112_d1 := by
  unfold Cert.ReferenceIdeal.Read.val_main_v12
  rw [Cert.ReferenceIdeal.RefSpec.ref_is_spec]

theorem frame_k : Cert.frame_Kernel := fun m ρ _ =>
  (θ_run Cert.Kernel.defs _ _).mono (fun _ h c =>
    ⟨(h c _ (Cert.Kernel.Run.mem_uc Cert.Kernel.main_arg0 (by decide))).trans (Cert.Kernel.Run.B4_main_arg0 m c),
     (h c _ (Cert.Kernel.Run.mem_uc Cert.Kernel.main_arg1 (by decide))).trans (Cert.Kernel.Run.B4_main_arg1 m c)⟩)
    (Cert.Kernel.Run.run (F := Bits) m ρ)

theorem frame_ki : Cert.frame_KernelIdeal := fun m ρ _ =>
  (θ_run Cert.KernelIdeal.defs _ _).mono (fun _ h c =>
    ⟨(h c _ (Cert.KernelIdeal.Run.mem_uc Cert.KernelIdeal.main_arg0 (by decide))).trans (Cert.KernelIdeal.Run.B4_main_arg0 m c),
     (h c _ (Cert.KernelIdeal.Run.mem_uc Cert.KernelIdeal.main_arg1 (by decide))).trans (Cert.KernelIdeal.Run.B4_main_arg1 m c)⟩)
    (Cert.KernelIdeal.Run.run (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs, run from memories agreeing on the arguments, end with `f` joined to the specification's
    array of the arguments. -/
theorem algebraic : Cert.algebraic_KernelIdeal_ReferenceIdeal := by
  intro m ρ m' ρ' _ hagree
  refine ⟨fun c => concatenate Cert.KernelIdeal.S256x2112 1 [⟨Cert.KernelIdeal.S256x2048, m ((c.tc : Thread Cert.KernelIdeal.nD Cert.KernelIdeal.τ).loc Cert.KernelIdeal.main_arg0)⟩,
      ⟨Cert.KernelIdeal.S256x64, Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))⟩]
      Cert.KernelIdeal.Facts₀.concatenates_S256x2048_S256x64_S256x2112_d1, ?_, ?_⟩
  · exact (θ_run Cert.KernelIdeal.defs _ _).mono (fun _ h c =>
      ⟨(h c _ (Cert.KernelIdeal.Run.mem_uc Cert.KernelIdeal.main_v5 (by decide))).trans (Cert.KernelIdeal.Final.result_eq m c),
       (h c _ (Cert.KernelIdeal.Run.mem_uc Cert.KernelIdeal.main_arg0 (by decide))).trans (Cert.KernelIdeal.Run.B4_main_arg0 m c),
       (h c _ (Cert.KernelIdeal.Run.mem_uc Cert.KernelIdeal.main_arg1 (by decide))).trans (Cert.KernelIdeal.Run.B4_main_arg1 m c)⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v12_eq, ref_result, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
